-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩
abbrev S1024x3072 : Shape := ⟨2, ![1024, 3072]⟩
abbrev S2x16x2048x64 : Shape := ⟨4, ![2, 16, 2048, 64]⟩
abbrev S1x128x1024 : Shape := ⟨3, ![1, 128, 1024]⟩
abbrev S1x16x128x64 : Shape := ⟨4, ![1, 16, 128, 64]⟩
abbrev S128x1024 : Shape := ⟨2, ![128, 1024]⟩
abbrev S128x3072 : Shape := ⟨2, ![128, 3072]⟩
abbrev S128x3x16x64 : Shape := ⟨4, ![128, 3, 16, 64]⟩
abbrev S128x1x16x64 : Shape := ⟨4, ![128, 1, 16, 64]⟩
abbrev S128x16x64 : Shape := ⟨3, ![128, 16, 64]⟩
abbrev S16x128x64 : Shape := ⟨3, ![16, 128, 64]⟩
abbrev S1x2x256x64 : Shape := ⟨4, ![1, 2, 256, 64]⟩
abbrev S1x2x2048x64 : Shape := ⟨4, ![1, 2, 2048, 64]⟩
abbrev S1x256x128 : Shape := ⟨3, ![1, 256, 128]⟩
abbrev S1x1x256x64 : Shape := ⟨4, ![1, 1, 256, 64]⟩
abbrev S256x64 : Shape := ⟨2, ![256, 64]⟩
abbrev S1x1x2048x64 : Shape := ⟨4, ![1, 1, 2048, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S4096x1024 : Shape := ⟨2, ![4096, 1024]⟩

abbrev nBuf : Space → Nat
  | .hbm => 20
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S_, .f32⟩
  | .hbm, ⟨4, _⟩ => ⟨S3072x1024, .f32⟩
  | .hbm, ⟨5, _⟩ => ⟨S3072x1024, .f32⟩
  | .hbm, ⟨6, _⟩ => ⟨S3072x1024, .bf16⟩
  | .hbm, ⟨7, _⟩ => ⟨S1024x3072, .bf16⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S2x16x2048x64, .bf16⟩
  | .hbm, ⟨14, _⟩ => ⟨S2x16x2048x64, .bf16⟩
  | .hbm, ⟨15, _⟩ => ⟨S2x16x2048x64, .bf16⟩
  | .hbm, ⟨16, _⟩ => ⟨S2x2048x1024, .bf16⟩
  | .hbm, ⟨17, _⟩ => ⟨S4096x1024, .bf16⟩
  | .hbm, ⟨18, _⟩ => ⟨S4096x1024, .f32⟩
  | .hbm, ⟨19, _⟩ => ⟨S2x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1024x3072, .bf16⟩
  | .local _ .vmem, ⟨3, _⟩ => ⟨S1x16x128x64, .bf16⟩
  | .local _ .vmem, ⟨4, _⟩ => ⟨S1x16x128x64, .bf16⟩
  | .local _ .vmem, ⟨5, _⟩ => ⟨S1x16x128x64, .bf16⟩
  | .local _ .vmem, ⟨6, _⟩ => ⟨S1x16x128x64, .bf16⟩
  | .local _ .vmem, ⟨7, _⟩ => ⟨S1x16x128x64, .bf16⟩
  | .local _ .vmem, ⟨8, _⟩ => ⟨S1x16x128x64, .bf16⟩
  | .local _ .vmem, ⟨9, _⟩ => ⟨S1x2x256x64, .bf16⟩
  | .local _ .vmem, ⟨10, _⟩ => ⟨S1x2x256x64, .bf16⟩
  | .local _ .vmem, ⟨11, _⟩ => ⟨S1x2x2048x64, .bf16⟩
  | .local _ .vmem, ⟨12, _⟩ => ⟨S1x2x2048x64, .bf16⟩
  | .local _ .vmem, ⟨13, _⟩ => ⟨S1x2x2048x64, .bf16⟩
  | .local _ .vmem, ⟨14, _⟩ => ⟨S1x2x2048x64, .bf16⟩
  | .local _ .vmem, ⟨15, _⟩ => ⟨S1x256x128, .bf16⟩
  | .local _ .vmem, ⟨16, _⟩ => ⟨S1x256x128, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 8, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S3072x1024 : S_.BroadcastsInDim S3072x1024 (![] : Fin 0 → Fin S3072x1024.rank)
  bitsLt_bf16_f32 : FTy.bits .bf16 < FTy.bits .f32
  transposes_S3072x1024_S1024x3072_1_0 : S3072x1024.Transposes [1, 0] S1024x3072
  bcast_S_S1024x1024 : S_.BroadcastsInDim S1024x1024 (![] : Fin 0 → Fin S1024x1024.rank)
  transposes_S1024x1024_S1024x1024_1_0 : S1024x1024.Transposes [1, 0] S1024x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  shapeCasts_S128x3072_S128x3x16x64 : S128x3072.ShapeCasts S128x3x16x64
  slices_S128x3x16x64_o0_0_0_0_S128x1x16x64 : S128x3x16x64.Slices ![0, 0, 0, 0] S128x1x16x64
  shapeCasts_S128x1x16x64_S128x16x64 : S128x1x16x64.ShapeCasts S128x16x64
  transposes_S128x16x64_p1_0_2_S16x128x64 : S128x16x64.Transposes [1, 0, 2] S16x128x64
  slices_S128x3x16x64_o0_1_0_0_S128x1x16x64 : S128x3x16x64.Slices ![0, 1, 0, 0] S128x1x16x64
  slices_S128x3x16x64_o0_2_0_0_S128x1x16x64 : S128x3x16x64.Slices ![0, 2, 0, 0] S128x1x16x64
  inb_S1x16x128x64_S1x16x128x64_0_0_0_0 : ∀ a, (![0, 0, 0, 0] : Fin 4 → Nat) a + S1x16x128x64.size a ≤ S1x16x128x64.size a
  h_S1x16x128x64 : 0 < S1x16x128x64.numel
  shapeCasts_S1x16x128x64_S16x128x64 : S1x16x128x64.ShapeCasts S16x128x64
  shapeCasts_S16x128x64_S1x16x128x64 : S16x128x64.ShapeCasts S1x16x128x64
  packedbf16_S1x16x128x64_S1x16x128x64_0_0_0_0 : (Rect.unit (s := S1x16x128x64) ![0, 0, 0, 0] S1x16x128x64.size inb_S1x16x128x64_S1x16x128x64_0_0_0_0).PackedRows (EltTy.packing .bf16)
  inb_S1x2x256x64_S1x1x256x64_0_0_0_0 : ∀ a, (![0, 0, 0, 0] : Fin 4 → Nat) a + S1x1x256x64.size a ≤ S1x2x256x64.size a
  h_S1x1x256x64 : 0 < S1x1x256x64.numel
  shapeCasts_S1x1x256x64_S256x64 : S1x1x256x64.ShapeCasts S256x64
  inb_S1x2x2048x64_S1x1x2048x64_0_0_0_0 : ∀ a, (![0, 0, 0, 0] : Fin 4 → Nat) a + S1x1x2048x64.size a ≤ S1x2x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x2x256x64_S1x1x256x64_0_1_0_0 : ∀ a, (![0, 1, 0, 0] : Fin 4 → Nat) a + S1x1x256x64.size a ≤ S1x2x256x64.size a
  inb_S1x2x2048x64_S1x1x2048x64_0_1_0_0 : ∀ a, (![0, 1, 0, 0] : Fin 4 → Nat) a + S1x1x2048x64.size a ≤ S1x2x2048x64.size a
  concatenates_S256x64_S256x64_S256x128_d1 : Shape.Concatenates [S256x64, S256x64] S256x128 1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  packedbf16_S1x256x128_S1x256x128_0_0_0 : (Rect.unit (s := S1x256x128) ![0, 0, 0] S1x256x128.size inb_S1x256x128_S1x256x128_0_0_0).PackedRows (EltTy.packing .bf16)
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S128x1024_S1024x3072_S128x3072_1_0_0_1_n_n_wf : DotDims.WF S128x1024 S1024x3072 S128x3072 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S2x2048x1024.size a
  hwx0_0 : ∀ i : grid0.Coords, EltTy.bits .f32 = 32 ∨ (Rect.block (s := S2x2048x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x64.size a ≤ S2x16x2048x64.size a
  hwx0_2 : ∀ i : grid0.Coords, EltTy.bits .bf16 = 32 ∨ (Rect.block (s := S2x16x2048x64) S1x16x128x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128x64.size a ≤ S2x16x2048x64.size a
  hwx0_3 : ∀ i : grid0.Coords, EltTy.bits .bf16 = 32 ∨ (Rect.block (s := S2x16x2048x64) S1x16x128x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x64.size a ≤ S2x16x2048x64.size a
  hwx0_4 : ∀ i : grid0.Coords, EltTy.bits .bf16 = 32 ∨ (Rect.block (s := S2x16x2048x64) S1x16x128x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x256x64.size a ≤ S2x16x2048x64.size a
  hwx1_0 : ∀ i : grid1.Coords, EltTy.bits .bf16 = 32 ∨ (Rect.block (s := S2x16x2048x64) S1x2x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x2048x64.size a ≤ S2x16x2048x64.size a
  hwx1_1 : ∀ i : grid1.Coords, EltTy.bits .bf16 = 32 ∨ (Rect.block (s := S2x16x2048x64) S1x2x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x2048x64.size a ≤ S2x16x2048x64.size a
  hwx1_2 : ∀ i : grid1.Coords, EltTy.bits .bf16 = 32 ∨ (Rect.block (s := S2x16x2048x64) S1x2x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S2x2048x1024.size a
  hwx1_3 : ∀ i : grid1.Coords, EltTy.bits .bf16 = 32 ∨ (Rect.block (s := S2x2048x1024) S1x256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)

variable [Facts₀]

def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S1x16x128x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1x16x128x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_2) S1x16x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_0) S1x2x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x2x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x2x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S_, .f32⟩
  | .hbm, ⟨4, _⟩ => ⟨S3072x1024, .f32⟩
  | .hbm, ⟨5, _⟩ => ⟨S3072x1024, .f32⟩
  | .hbm, ⟨6, _⟩ => ⟨S2x2048x3072, .f32⟩
  | .hbm, ⟨7, _⟩ => ⟨S2x2048x3x16x64, .f32⟩
  | .hbm, ⟨8, _⟩ => ⟨S2x2048x1x16x64, .f32⟩
  | .hbm, ⟨9, _⟩ => ⟨S2x2048x16x64, .f32⟩
  | .hbm, ⟨10, _⟩ => ⟨S2x16x2048x64, .f32⟩
  | .hbm, ⟨11, _⟩ => ⟨S2x2048x1x16x64, .f32⟩
  | .hbm, ⟨12, _⟩ => ⟨S2x2048x16x64, .f32⟩
  | .hbm, ⟨13, _⟩ => ⟨S2x16x2048x64, .f32⟩
  | .hbm, ⟨14, _⟩ => ⟨S2x2048x1x16x64, .f32⟩
  | .hbm, ⟨15, _⟩ => ⟨S2x2048x16x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S_S3072x1024 : S_.BroadcastsInDim S3072x1024 (![] : Fin 0 → Fin S3072x1024.rank)
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S_S1024x1024 : S_.BroadcastsInDim S1024x1024 (![] : Fin 0 → Fin S1024x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KernelRun.lean ====
/- The idealized kernel's run, with its result named.

   The program is six segments in a row: a stretch of host operations (the two weights scaled and transposed), the
   projection kernel, the attention kernel, a reshape, the output-projection kernel, a reshape.  Every weakly fair
   execution terminates without a fault, and in the final memory every buffer that outlives the kernels holds what
   the fold of those six segments over the launch memory gives it; in particular the result holds that fold's value
   and the three arguments hold what they were launched with. -/
import proofs.«118262_j10471130267932_2_alg».proof.Proof.Gen.KernelIdeal.Frame

set_option maxRecDepth 16384

noncomputable section

namespace Cert.KernelIdeal.RunVals

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the six-segment fold's value, the arguments as launched. -/
theorem run_vals : θ_run defs (onTc (τ := τ) (main (F := F))) ⟨m, fun _ => 0, ρ⟩ (fun r => ∀ c : Dev nD,
      r.2.mem ((c.tc : Thread nD τ).loc main_v12) = W6 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v12 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunVals

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.LibRowSoftmax.lean ====
/- Row maxima and the softmax of a row, as a kernel and as a host program compute them, read at an index.

   For a row r of finitely many extended reals and a starting value z, `maxFrom z r` is the largest of z and the
   entries of r, and `softmaxFrom z r j = exp (r j - maxFrom z r) / Σ_k exp (r k - maxFrom z r)`.
   A kernel takes the maximum (and the sum) of every row of an [a, b] matrix as a vector of length a, re-lays
   it as an [a, 1] column and spreads the column over the row; a host program reduces the last axis of an
   [n, a, b] stack.  Read at an index, each is `maxFrom` (or the plain sum) of that row, so the kernel's
   subtract-exponentiate-normalise chain is `softmaxFrom` of the row, entry by entry. -/
import Idealize.ShloMosaic.Lib.Pipeline.Value
import Idealize.ShloMosaic.Lib.ValueIdx
import Idealize.ShloMosaic.PureOps.Ideal.Laws
import proofs.«118262_j10471130267932_2_alg».proof.Proof.LibColumn

noncomputable section

namespace Cert.LibRowSoftmax

open Idealize.ShloMosaic Idealize.ShloMosaic.ValueIdx

/-- The largest of `z` and the entries of a row. -/
def maxFrom {b : ℕ} (z : EReal) (r : Fin b → EReal) : EReal := (Finset.univ : Finset (Fin b)).fold max z r

/-- The starting value is below the maximum taken from it. -/
theorem le_maxFrom {b : ℕ} (z : EReal) (r : Fin b → EReal) : z ≤ maxFrom z r :=
  (Finset.le_fold_max z).mpr (Or.inl le_rfl)

/-- Taking the larger of the starting value and the maximum taken from it changes nothing. -/
theorem max_maxFrom {b : ℕ} (z : EReal) (r : Fin b → EReal) : max z (maxFrom z r) = maxFrom z r :=
  max_eq_right (le_maxFrom z r)

/-- The softmax of a row, its entries centred at their maximum taken from `z`. -/
def softmaxFrom {b : ℕ} (z : EReal) (r : Fin b → EReal) (j : Fin b) : EReal :=
  Ideal.div (Ideal.exp (r j - maxFrom z r)) (∑ k : Fin b, Ideal.exp (r k - maxFrom z r))

/-! ## A kernel's reductions along the rows of an [a, b] matrix -/

/-- Row p with column k put back is entry (p, k). -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The maximum over each row, at row p: the largest of the accumulator's value and the row's entries. -/
theorem multiReduction_max_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p) = maxFrom (Ideal.ofBits φ acc) (fun k => v (ix2 p k)) :=
  (Ideal.multiReduction_maximumf_single v acc h hφ hacc (ix1 p)).trans
    (congrArg (fun f => (Finset.univ : Finset (Fin b)).fold max (Ideal.ofBits φ acc) f)
      (funext fun k => congrArg v (lift_row h p k)))

/-- The sum over each row, at row p. -/
theorem multiReduction_add_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The kernel's chain on an f32 [a, b] matrix: the row maxima from -inf as a column spread over the rows,
    subtracted; the exponential; the row sums from zero likewise; the quotient. -/
def rowSoftmax {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  divf
    (exp (subf e (broadcastTo ⟨2, ![a, b]⟩ (shapeCast ⟨2, ![a, 1]⟩
      (multiReduction .maximumf [1] ⟨1, ![a]⟩ e 0xFF800000#32 hR (.inl rfl) rfl) hC) hB)))
    (broadcastTo ⟨2, ![a, b]⟩ (shapeCast ⟨2, ![a, 1]⟩
      (multiReduction .add [1] ⟨1, ![a]⟩
        (exp (subf e (broadcastTo ⟨2, ![a, b]⟩ (shapeCast ⟨2, ![a, 1]⟩
          (multiReduction .maximumf [1] ⟨1, ![a]⟩ e 0xFF800000#32 hR (.inl rfl) rfl) hC) hB)))
        0x00000000#32 hR (.inl rfl) rfl) hC) hB)

/-- Entry (p, c) of the kernel's chain is the softmax of row p at c. -/
theorem rowSoftmax_apply {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (p : Fin a) (c : Fin b) :
    rowSoftmax e hR hC hB (ix2 p c) = softmaxFrom (Ideal.ofBits .f32 0xFF800000#32) (fun k => e (ix2 p k)) c := by
  have hm : ∀ c' : Fin b, broadcastTo ⟨2, ![a, b]⟩ (shapeCast ⟨2, ![a, 1]⟩
      (multiReduction .maximumf [1] ⟨1, ![a]⟩ e 0xFF800000#32 hR (.inl rfl) rfl) hC) hB (ix2 p c')
      = maxFrom (Ideal.ofBits .f32 0xFF800000#32) (fun k => e (ix2 p k)) := fun c' =>
    (Cert.LibColumn.broadcastTo_shapeCast_column_apply _ hC hB p c').trans (multiReduction_max_row e _ hR _ _ p)
  have hs : ∀ (u : FVec Ideal ⟨2, ![a, b]⟩ .f32), broadcastTo ⟨2, ![a, b]⟩ (shapeCast ⟨2, ![a, 1]⟩
      (multiReduction .add [1] ⟨1, ![a]⟩ u 0x00000000#32 hR (.inl rfl) rfl) hC) hB (ix2 p c)
      = ∑ k : Fin b, u (ix2 p k) := fun u =>
    (Cert.LibColumn.broadcastTo_shapeCast_column_apply _ hC hB p c).trans (multiReduction_add_row u _ hR _ _ p)
  unfold rowSoftmax softmaxFrom
  refine (divf_apply _ _ _).trans ?_
  rw [hs]
  simp only [exp, subf, Ideal.exp_def, Ideal.subf_def, hm]

/-! ## A host program's reduction along the last axis of an [n, a, b] stack -/

/-- Row (d, p) with position k put back is entry (d, p, k). -/
theorem lift_row3 {n a b : ℕ} (h : (⟨3, ![n, a, b]⟩ : Shape).Reduces [2] ⟨2, ![n, a]⟩) (d : Fin n) (p : Fin a) (k : Fin b) :
    h.lift (ix2 d p) k = ix3 d p k :=
  funext fun c => Fin.ext (by match c with | ⟨0, _⟩ => rfl | ⟨1, _⟩ => rfl | ⟨2, _⟩ => rfl)

/-- The host's maximum along the last axis, at row (d, p): the largest of the initial value and the row's entries. -/
theorem hostReduce_max_row3 {n a b : ℕ} {u : Shape} (x : (⟨3, ![n, a, b]⟩ : Shape).Idx → Ideal .f32) (init : u.Idx → Ideal .f32)
    (h' : (⟨3, ![n, a, b]⟩ : Shape).ReducesTo [2] ⟨2, ![n, a]⟩) (h : (⟨3, ![n, a, b]⟩ : Shape).Reduces [2] ⟨2, ![n, a]⟩)
    (hu : 0 < u.numel) (d : Fin n) (p : Fin a) :
    Host.reduce FloatOps.maximumf x init h' hu (ix2 d p) = maxFrom (init (Shape.Idx.first hu)) (fun k => x (ix3 d p k)) :=
  (Host.reduce_eq_fold_single FloatOps.maximumf x init h' h hu (ix2 d p)).trans
    (congrArg (fun f => (Finset.univ : Finset (Fin b)).fold max (init (Shape.Idx.first hu)) f)
      (funext fun k => congrArg x (lift_row3 h d p k)))

end Cert.LibRowSoftmax

end
-- ==== Proof.Spec.lean ====
/- Multi-head self-attention over the extended reals, entry by entry.

   From an input x [2, 2048, 1024], a stacked projection weight wq [3072, 1024] and an output weight wp [1024, 1024]:
   the weights are scaled by the f32 value of pi/2; feature j·1024 + h·64 + d of the projected row (b, t) is entry
   (b, h, t, d) of the query (j = 0), key (j = 1) or value (j = 2) of head h; a score is the query-key product over
   the 64 head coordinates times 1/8; each row of scores goes through the softmax centred at its maximum; the
   attention output of head h is the softmax-weighted sum of the values; the 16 heads are laid side by side as the
   1024 features of row (b, t), and that row is projected by the scaled output weight. -/
import Idealize.ShloMosaic.PureOps.Ideal
import Idealize.ShloMosaic.Lib.ValueIdx
import proofs.«118262_j10471130267932_2_alg».proof.Proof.LibRowSoftmax

noncomputable section

namespace Cert.Attn

open Idealize.ShloMosaic Idealize.ShloMosaic.ValueIdx Cert.LibRowSoftmax

/-- pi/2 rounded to f32, as the extended real its pattern denotes. -/
def halfPi : EReal := Ideal.ofBits .f32 0x3FC90FDB#32
/-- 1/8, the inverse square root of the head width 64. -/
def scale : EReal := Ideal.ofBits .f32 0x3E000000#32
/-- The f32 pattern of -inf. -/
def negInf : EReal := Ideal.ofBits .f32 0xFF800000#32

/-- The projected feature that holds coordinate d of head h of the query (j = 0), key (1) or value (2). -/
def feat (j : Fin 3) (h : Fin 16) (d : Fin 64) : Fin 3072 :=
  ⟨j.val * 1024 + h.val * 64 + d.val, by have := j.isLt; have := h.isLt; have := d.isLt; omega⟩

/-- The head of a merged feature, and the coordinate inside the head. -/
def headOf (c : Fin 1024) : Fin 16 := ⟨c.val / 64, by have := c.isLt; omega⟩
def coordOf (c : Fin 1024) : Fin 64 := ⟨c.val % 64, Nat.mod_lt _ (by decide)⟩

/-- Feature (h, d) of the merged row. -/
def mergeOf (h : Fin 16) (d : Fin 64) : Fin 1024 := ⟨h.val * 64 + d.val, by have := h.isLt; have := d.isLt; omega⟩

theorem headOf_mergeOf (h : Fin 16) (d : Fin 64) : headOf (mergeOf h d) = h :=
  Fin.ext (by show (h.val * 64 + d.val) / 64 = h.val; have := d.isLt; omega)
theorem coordOf_mergeOf (h : Fin 16) (d : Fin 64) : coordOf (mergeOf h d) = d :=
  Fin.ext (by show (h.val * 64 + d.val) % 64 = d.val; have := d.isLt; omega)
theorem mergeOf_headOf_coordOf (c : Fin 1024) : mergeOf (headOf c) (coordOf c) = c :=
  Fin.ext (by show c.val / 64 * 64 + c.val % 64 = c.val; omega)

/-- A row of a [rows, 1024] matrix times a [1024, cols] matrix, at one entry. -/
def rowTimes (A : Fin 1024 → EReal) (B : Fin 1024 → EReal) : EReal := ∑ c : Fin 1024, A c * B c

/-- One head's attention from its queries, keys and values, at query row q and coordinate d: the scores of the
    row, their softmax centred at the row maximum (taken from -inf), the weighted sum of the values. -/
def headAttn (Q : Fin 2048 → Fin 64 → EReal) (K : Fin 2048 → Fin 64 → EReal) (V : Fin 2048 → Fin 64 → EReal)
    (q : Fin 2048) (d : Fin 64) : EReal :=
  ∑ k : Fin 2048, softmaxFrom negInf (fun k' => (∑ e : Fin 64, Q q e * K k' e) * scale) k * V k d

variable (x : FVec Ideal ⟨3, ![2, 2048, 1024]⟩ .f32) (wq : FVec Ideal ⟨2, ![3072, 1024]⟩ .f32)
  (wp : FVec Ideal ⟨2, ![1024, 1024]⟩ .f32)

/-- Entry (b, h, t, d) of the query (j = 0), key (1) or value (2). -/
def proj (j : Fin 3) (b : Fin 2) (h : Fin 16) (t : Fin 2048) (d : Fin 64) : EReal :=
  ∑ c : Fin 1024, x (ix3 b t c) * (wq (ix2 (feat j h d) c) * halfPi)

/-- Entry (b, t, c) of the merged attention output. -/
def merged (b : Fin 2) (t : Fin 2048) (c : Fin 1024) : EReal :=
  headAttn (fun q e => proj x wq 0 b (headOf c) q e) (fun k e => proj x wq 1 b (headOf c) k e)
    (fun k e => proj x wq 2 b (headOf c) k e) t (coordOf c)

/-- Entry (b, t, f) of the result. -/
def outAt (b : Fin 2) (t : Fin 2048) (f : Fin 1024) : EReal :=
  ∑ c : Fin 1024, merged x wq b t c * (wp (ix2 f c) * halfPi)

/-- The result as an array. -/
def out : FVec Ideal ⟨3, ![2, 2048, 1024]⟩ .f32 := fun i => outAt x wq wp (i 0) (i 1) (i 2)

theorem out_apply (b : Fin 2) (t : Fin 2048) (f : Fin 1024) : out x wq wp (ix3 b t f) = outAt x wq wp b t f := rfl

end Cert.Attn

end
-- ==== Proof.Host.lean ====
/- The host operations around the three kernels, read at an index.

   Before the first kernel each weight is scaled by the f32 value of pi/2 and transposed, so entry (k, f) of the
   transposed weight is w(f, k) · pi/2; the input is untouched.  Between the kernels the attention output
   [2, 2048, 1024] is re-laid as 4096 rows (row b·2048 + t is row t of batch b), and after the last kernel the
   4096 rows are re-laid back.  A buffer that a segment does not write keeps what it held. -/
import proofs.«118262_j10471130267932_2_alg».proof.Proof.Gen.KernelIdeal.Frame
import proofs.«118262_j10471130267932_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The three argument arrays at launch, typed as arrays of extended reals. -/
abbrev argX (c : Dev nD) : FVec Ideal S2x2048x1024 .f32 := m ((c : Thread nD τ).loc main_arg0)
abbrev argWq (c : Dev nD) : FVec Ideal S3072x1024 .f32 := m ((c : Thread nD τ).loc main_arg1)
abbrev argWp (c : Dev nD) : FVec Ideal S1024x1024 .f32 := m ((c : Thread nD τ).loc main_arg2)

/-- The input as the projection kernel finds it is the launch input. -/
theorem V1_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))).trans rfl

/-- The transposed, scaled projection weight as a term of the launch weight. -/
theorem V1_v3 (c : Dev nD) : V1 m ρ c main_v3
    = transpose S1024x3072 [1, 0] (truncf .bf16 (mulf (m ((c : Thread nD τ).loc main_arg1))
        (broadcastInDim S3072x1024 ![] bcast_S_S3072x1024 (constant (F := Ideal) S_ .f32 0x3FC90FDB#32))) bitsLt_bf16_f32)
        transposes_S3072x1024_S1024x3072_1_0 := by
  show StableHlo.after hostOps0 (W0 m ρ c) (Proc.devRef .tc main_v3) = _
  after_results

/-- Entry (k, f) of the transposed projection weight is w(f, k) · pi/2. -/
theorem V1_v3_apply (c : Dev nD) (k : Fin 1024) (f : Fin 3072) :
    V1 m ρ c main_v3 (ix2 k f) = argWq m c (ix2 f k) * Cert.Attn.halfPi := by
  rw [V1_v3]
  refine (transpose_apply [1, 0] _ transposes_S3072x1024_S1024x3072_1_0 (ix2 k f) (ix2 f k) (fun b => by
    match b with
    | ⟨0, _⟩ => rfl
    | ⟨1, _⟩ => rfl)).trans ?_
  rfl

/-- The transposed, scaled output weight as a term of the launch weight. -/
theorem V1_v7 (c : Dev nD) : V1 m ρ c main_v7
    = transpose S1024x1024 [1, 0] (truncf .bf16 (mulf (m ((c : Thread nD τ).loc main_arg2))
        (broadcastInDim S1024x1024 ![] bcast_S_S1024x1024 (constant (F := Ideal) S_ .f32 0x3FC90FDB#32))) bitsLt_bf16_f32)
        transposes_S1024x1024_S1024x1024_1_0 := by
  show StableHlo.after hostOps0 (W0 m ρ c) (Proc.devRef .tc main_v7) = _
  after_results

/-- Entry (k, f) of the transposed output weight is w(f, k) · pi/2. -/
theorem V1_v7_apply (c : Dev nD) (k : Fin 1024) (f : Fin 1024) :
    V1 m ρ c main_v7 (ix2 k f) = argWp m c (ix2 f k) * Cert.Attn.halfPi := by
  rw [V1_v7]
  refine (transpose_apply [1, 0] _ transposes_S1024x1024_S1024x1024_1_0 (ix2 k f) (ix2 f k) (fun b => by
    match b with
    | ⟨0, _⟩ => rfl
    | ⟨1, _⟩ => rfl)).trans ?_
  rfl

/-- The output weight as the last kernel finds it is what the first stretch left: nothing in between writes it. -/
theorem V4_v7 (c : Dev nD) : V4 m ρ c main_v7 = V1 m ρ c main_v7 :=
  calc W4 m ρ c (Proc.devRef .tc main_v7)
    _ = W3 m ρ c (Proc.devRef .tc main_v7) := StableHlo.after_of_forall_not_mem (b := Proc.devRef .tc main_v7) _ _ (List.forall_iff_forall_mem.mp (by
          simp only [hostOps2, List.Forall, StableHlo.reshape_writes, Finset.mem_singleton]
          exact StableHlo.devRef_ne_of_ne (by decide)))
    _ = W2 m ρ c (Proc.devRef .tc main_v7) := W3_of_ne m ρ c main_v7 (by decide)
    _ = W1 m ρ c (Proc.devRef .tc main_v7) := W2_of_ne m ρ c main_v7 (by decide)

/-- The three projections as the attention kernel finds them are what the projection kernel left. -/
theorem V2_q (c : Dev nD) : V2 m ρ c main_v8_0 = (dat0 (V1 m ρ) c).arrAt 2 cfg0.N := W2_arr m ρ c 2
theorem V2_k (c : Dev nD) : V2 m ρ c main_v8_1 = (dat0 (V1 m ρ) c).arrAt 3 cfg0.N := W2_arr m ρ c 3
theorem V2_v (c : Dev nD) : V2 m ρ c main_v8_2 = (dat0 (V1 m ρ) c).arrAt 4 cfg0.N := W2_arr m ρ c 4

/-- The re-laid attention output as the last kernel finds it. -/
theorem V4_v10 (c : Dev nD) : V4 m ρ c main_v10
    = shapeCast S4096x1024 (W3 m ρ c (Proc.devRef .tc main_v9)) shapeCasts_S2x2048x1024_S4096x1024 := by
  show StableHlo.after hostOps2 (W3 m ρ c) (Proc.devRef .tc main_v10) = _
  after_results
  rfl

/-- Row r of the re-laid attention output is row r mod 2048 of batch r / 2048 of what the attention kernel left. -/
theorem V4_v10_apply (c : Dev nD) (r : Fin 4096) (k : Fin 1024) :
    V4 m ρ c main_v10 (ix2 r k)
      = (dat1 (V2 m ρ) c).arrAt 3 cfg1.N (ix3 (⟨r.val / 2048, by have := r.isLt; omega⟩ : Fin 2) (⟨r.val % 2048, Nat.mod_lt _ (by decide)⟩ : Fin 2048) k) := by
  rw [V4_v10, ← W3_arr m ρ c 3]
  exact shapeCast_apply _ shapeCasts_S2x2048x1024_S4096x1024 _ _ (by
    rw [Shape.rowMajor_val_three, Shape.rowMajor_val_two]
    show (r.val / 2048 * 2048 + r.val % 2048) * 1024 + k.val = r.val * 1024 + k.val
    have := r.isLt; omega)

/-- The result is the last kernel's output re-laid. -/
theorem W6_v12 (c : Dev nD) : W6 m ρ c (Proc.devRef .tc main_v12)
    = shapeCast S2x2048x1024 (W5 m ρ c (Proc.devRef .tc main_v11)) shapeCasts_S4096x1024_S2x2048x1024 := by
  show StableHlo.after hostOps3 (W5 m ρ c) (Proc.devRef .tc main_v12) = _
  after_results
  rfl

/-- Entry (b, t, f) of the result is entry (b·2048 + t, f) of what the last kernel left. -/
theorem W6_v12_apply (c : Dev nD) (b : Fin 2) (tt : Fin 2048) (f : Fin 1024) :
    W6 m ρ c (Proc.devRef .tc main_v12) (ix3 b tt f)
      = (dat2 (V4 m ρ) c).arrAt 2 cfg2.N (ix2 (⟨b.val * 2048 + tt.val, by have := b.isLt; have := tt.isLt; omega⟩ : Fin 4096) f) := by
  rw [W6_v12, ← W5_arr m ρ c 2]
  exact shapeCast_apply _ shapeCasts_S4096x1024_S2x2048x1024 _ _ (by
    rw [Shape.rowMajor_val_two, Shape.rowMajor_val_three]
    show (b.val * 2048 + tt.val) * 1024 + f.val = (b.val * 2048 + tt.val) * 1024 + f.val
    rfl)

end Cert.KernelIdeal.HostVals

end
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.Region0.lean ====
/- The stacked query/key/value projection as matrix products, entry by entry, over the extended reals.

   The region multiplies the input x [2, 2048, 1024], 128 rows at a time, by the whole stacked weight W [1024, 3072], and
   stores the [128, 3072] product as three blocks [1, 16, 128, 64]: column j·1024 + h·64 + d of the product is coordinate
   d of head h of the j-th projection (j = 0, 1, 2). Each of the three result arrays [2, 16, 2048, 64] ends holding, at
   entry (b, h, t, d), the sum over k of x(b, t, k)·W(k, j·1024 + h·64 + d): the body's value is that sum for the
   block's rows (the re-laying only moves entries), row r of the block of point 16·b + s is row (b, 128·s + r) of the
   input, and the 32 blocks cover each array. -/
import proofs.«118262_j10471130267932_2_alg».proof.Proof.Gen.KernelIdeal.Frame
import proofs.«118262_j10471130267932_2_alg».proof.Proof.LibPlainMatmul
import proofs.«118262_j10471130267932_2_alg».proof.Proof.Spec
import Idealize.ShloMosaic.Lib.Pipeline.Value
import Idealize.ShloMosaic.Lib.ValueLayout

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays, the specification of the three results, and the grid's index maps -/

/-- A whole-block access has offset zero on every axis. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The input [2, 2048, 1024] and the stacked weight [1024, 3072] as the region finds them. -/
abbrev inX (c : Dev nD) : FVec Ideal S2x2048x1024 .f32 := V c main_arg0
abbrev inW (c : Dev nD) : FVec Ideal S1024x3072 .bf16 := V c main_v3

/-- The j-th projection laid out by heads: entry (b, h, t, d) is the product of row (b, t) of the input with the
    weight's column for coordinate d of head h of the j-th projection. -/
def projAt (j : Fin 3) (c : Dev nD) : FVec Ideal S2x16x2048x64 .bf16 :=
  fun i => ∑ k : Fin 1024, inX V c (ix3 (i 0 : Fin 2) (i 2 : Fin 2048) k)
    * inW V c (ix2 k (Cert.Attn.feat j (i 1 : Fin 16) (i 3 : Fin 64)))

/-- The block indices over the 2 × 16 grid, point t = 16·b + s: the input's block is (b, s, 0), the weight's (0, 0). -/
theorem idx_x : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)
theorem idx_w : ∀ t : Fin cfg0.N, win0_1.index t (0 : Fin 2) = 0 ∧ win0_1.index t (1 : Fin 2) = 0 :=
  (by decide +kernel : ∀ t : Fin grid0.N, _)

/-- Row r of point t's block of the input is row (t / 16, 128·(t % 16) + r) of the input. -/
theorem x_block (c : Dev nD) (t : Fin cfg0.N) (u : Fin 1) (r : Fin 128) (k : Fin 1024) (B : Fin 2) (T : Fin 2048)
    (hB : B.val = t.val / 16) (hT : T.val = t.val % 16 * 128 + r.val) :
    iblk0 V c 0 t (ix3 u r k) = inX V c (ix3 B T k) := by
  obtain ⟨e0, e1, e2⟩ := idx_x t
  have hu := u.isLt
  show V c main_arg0 (((cfg0.win 0).blk t).view.emb (ix3 u r k)) = V c main_arg0 (ix3 B T k)
  refine congrArg (V c main_arg0) (funext fun a => Fin.ext ?_)
  match a with
  | ⟨0, _⟩ => show win0_0.index t (0 : Fin 3) * 1 + 1 * u.val = B.val; omega
  | ⟨1, _⟩ => show win0_0.index t (1 : Fin 3) * 128 + 1 * r.val = T.val; omega
  | ⟨2, _⟩ => show win0_0.index t (2 : Fin 3) * 1024 + 1 * k.val = k.val; omega

/-- Every point's block of the weight is the whole weight. -/
theorem w_block (c : Dev nD) (t : Fin cfg0.N) (k : Fin 1024) (f : Fin 3072) :
    iblk0 V c 1 t (ix2 k f) = inW V c (ix2 k f) := by
  obtain ⟨e0, e1⟩ := idx_w t
  show V c main_v3 (((cfg0.win 1).blk t).view.emb (ix2 k f)) = V c main_v3 (ix2 k f)
  refine congrArg (V c main_v3) (funext fun a => Fin.ext ?_)
  match a with
  | ⟨0, _⟩ => show win0_1.index t (0 : Fin 2) * 1024 + 1 * k.val = k.val; omega
  | ⟨1, _⟩ => show win0_1.index t (1 : Fin 2) * 3072 + 1 * f.val = f.val; omega

/-- A stored block whose entries are the row-by-column products of the point's input blocks is, entry by entry, the
    j-th projection at row (t / 16, 128·(t % 16) + r). -/
theorem block_value (c : Dev nD) (t : Fin cfg0.N) (j : Fin 3)
    (pay : Vec Ideal S1x128x1024 .f32 → Vec Ideal S1024x3072 .bf16 → FVec Ideal S1x16x128x64 .bf16)
    (hpay : ∀ x0 x1 (u : Fin 1) (h : Fin 16) (r : Fin 128) (d : Fin 64),
      pay x0 x1 (ix4 u h r d) = ∑ k : Fin 1024, x0 (ix3 (0 : Fin 1) r k) * x1 (ix2 k (Cert.Attn.feat j h d)))
    (u : Fin 1) (h : Fin 16) (r : Fin 128) (d : Fin 64) (B : Fin 2) (T : Fin 2048)
    (hB : B.val = t.val / 16) (hT : T.val = t.val % 16 * 128 + r.val) :
    pay (iblk0 V c 0 t) (iblk0 V c 1 t) (ix4 u h r d) = projAt V j c (ix4 B h T d) := by
  refine (hpay _ _ u h r d).trans ?_
  show _ = ∑ k : Fin 1024, inX V c (ix3 B T k) * inW V c (ix2 k (Cert.Attn.feat j h d))
  exact Finset.sum_congr rfl fun k _ => by rw [x_block V c t 0 r k B T hB hT, w_block V c t k _]

/-! ## The body's values, entry by entry -/

/-- The projected block [128, 3072] read as [128, 3, 16, 64]: entry (r, j, h, d) is the product of row r of the input
    block with column j·1024 + h·64 + d of the weight. -/
theorem pay1_apply (x0 : Vec Ideal S1x128x1024 .f32) (x1 : Vec Ideal S1024x3072 .bf16) (r : Fin 128) (j : Fin 3) (h : Fin 16)
    (d : Fin 64) :
    k0_pay1 x0 x1 (ix4 r j h d) = ∑ k : Fin 1024, x0 (ix3 (0 : Fin 1) r k) * x1 (ix2 k (Cert.Attn.feat j h d)) := by
  unfold k0_pay1
  rw [shapeCast_self]
  refine (shapeCast_apply _ _ _ (ix2 r (Cert.Attn.feat j h d)) ?_).trans ?_
  · rw [Shape.rowMajor_val_two, Shape.rowMajor_val_four]
    show r.val * 3072 + (j.val * 1024 + h.val * 64 + d.val) = ((r.val * 3 + j.val) * 16 + h.val) * 64 + d.val
    omega
  · refine (PlainMatmul.matmul_plain_zero_apply (φ₁ := .bf16) (φ₂ := .bf16) none _ x1 r (Cert.Attn.feat j h d)).trans ?_
    refine Finset.sum_congr rfl fun k _ => ?_
    refine congrArg (· * x1 (ix2 k (Cert.Attn.feat j h d))) ?_
    exact shapeCast_1ab_ab_apply x0 _ r k

/-- One of the three pieces re-laid: the slice at (0, o, 0, 0) of a [128, 3, 16, 64] array, with its unit axis dropped,
    its first two axes exchanged and a leading unit axis added, reads at (u, h, r, d) the array at (r, o, h, d). -/
theorem relaid_apply (o : Nat) (j : Fin 3) (hj : j.val = o) (y : FVec Ideal S128x3x16x64 .f32)
    (hs : S128x3x16x64.Slices ![0, o, 0, 0] S128x1x16x64) (hc : S128x1x16x64.ShapeCasts S128x16x64)
    (ht : S128x16x64.Transposes [1, 0, 2] S16x128x64) (hb : FTy.bf16.bits < FTy.f32.bits) (hc' : S16x128x64.ShapeCasts S1x16x128x64)
    (u : Fin 1) (h : Fin 16) (r : Fin 128) (d : Fin 64) :
    shapeCast S1x16x128x64 (truncf .bf16 (transpose S16x128x64 [1, 0, 2] (shapeCast S128x16x64
        (extractStridedSlice S128x1x16x64 ![0, o, 0, 0] y hs) hc) ht) hb) hc' (ix4 u h r d) = y (ix4 r j h d) := by
  refine (shapeCast_abc_1abc_apply _ hc' u h r d).trans ?_
  refine (truncf_apply (ψ := .bf16) _ hb (ix3 h r d)).trans ?_
  refine (transpose_apply [1, 0, 2] _ ht (ix3 h r d) (ix3 r h d) fun b => ?_).trans ?_
  · match b with | ⟨0, _⟩ => rfl | ⟨1, _⟩ => rfl | ⟨2, _⟩ => rfl
  refine (shapeCast_apply _ hc (ix3 r h d) (ix4 r (0 : Fin 1) h d) ?_).trans ?_
  · rw [Shape.rowMajor_val_four, Shape.rowMajor_val_three]
    show ((r.val * 1 + 0) * 16 + h.val) * 64 + d.val = (r.val * 16 + h.val) * 64 + d.val
    omega
  exact slice4_axis1_apply o y hs r (0 : Fin 1) h d j (by rw [hj]; rfl)

/-- The three stored blocks: entry (u, h, r, d) of the j-th is the product of row r of the input block with the weight's
    column for coordinate d of head h of the j-th projection. -/
theorem pay2_apply (x0 : Vec Ideal S1x128x1024 .f32) (x1 : Vec Ideal S1024x3072 .bf16) (u : Fin 1) (h : Fin 16) (r : Fin 128) (d : Fin 64) :
    k0_pay2 x0 x1 (ix4 u h r d) = ∑ k : Fin 1024, x0 (ix3 (0 : Fin 1) r k) * x1 (ix2 k (Cert.Attn.feat 0 h d)) := by
  unfold k0_pay2
  exact (relaid_apply 0 0 rfl (k0_pay1 x0 x1) _ _ _ _ _ u h r d).trans (pay1_apply x0 x1 r 0 h d)
theorem pay3_apply (x0 : Vec Ideal S1x128x1024 .f32) (x1 : Vec Ideal S1024x3072 .bf16) (u : Fin 1) (h : Fin 16) (r : Fin 128) (d : Fin 64) :
    k0_pay3 x0 x1 (ix4 u h r d) = ∑ k : Fin 1024, x0 (ix3 (0 : Fin 1) r k) * x1 (ix2 k (Cert.Attn.feat 1 h d)) := by
  unfold k0_pay3
  exact (relaid_apply 1 1 rfl (k0_pay1 x0 x1) _ _ _ _ _ u h r d).trans (pay1_apply x0 x1 r 1 h d)
theorem pay4_apply (x0 : Vec Ideal S1x128x1024 .f32) (x1 : Vec Ideal S1024x3072 .bf16) (u : Fin 1) (h : Fin 16) (r : Fin 128) (d : Fin 64) :
    k0_pay4 x0 x1 (ix4 u h r d) = ∑ k : Fin 1024, x0 (ix3 (0 : Fin 1) r k) * x1 (ix2 k (Cert.Attn.feat 2 h d)) := by
  unfold k0_pay4
  exact (relaid_apply 2 2 rfl (k0_pay1 x0 x1) _ _ _ _ _ u h r d).trans (pay1_apply x0 x1 r 2 h d)

/-! ## Result 0: window 2 -/

/-- Its block at point t = 16·b + s is (b, 0, s, 0). -/
theorem idx_q : ∀ t : Fin cfg0.N, win0_2.index t (0 : Fin 4) = t.val / 16 ∧ win0_2.index t (1 : Fin 4) = 0
    ∧ win0_2.index t (2 : Fin 4) = t.val % 16 ∧ win0_2.index t (3 : Fin 4) = 0 :=
  (by decide +kernel : ∀ t : Fin grid0.N, _)

/-- Entry (u, h, r, d) of point t's block sits at (t / 16, h, 128·(t % 16) + r, d) of the array. -/
theorem emb_q (t : Fin cfg0.N) (u : Fin 1) (h : Fin 16) (r : Fin 128) (d : Fin 64) (B : Fin 2) (T : Fin 2048)
    (hB : B.val = t.val / 16) (hT : T.val = t.val % 16 * 128 + r.val) :
    ((cfg0.win 2).blk t).view.emb (ix4 u h r d) = ix4 B h T d := by
  obtain ⟨e0, e1, e2, e3⟩ := idx_q t
  have hu := u.isLt
  refine funext fun a => Fin.ext ?_
  match a with
  | ⟨0, _⟩ => show win0_2.index t (0 : Fin 4) * 1 + 1 * u.val = B.val; omega
  | ⟨1, _⟩ => show win0_2.index t (1 : Fin 4) * 16 + 1 * h.val = h.val; omega
  | ⟨2, _⟩ => show win0_2.index t (2 : Fin 4) * 128 + 1 * r.val = T.val; omega
  | ⟨3, _⟩ => show win0_2.index t (3 : Fin 4) * 64 + 1 * d.val = d.val; omega

/-- What point t writes back is block t of the projection. -/
theorem flushed_q (c : Dev nD) (t : Fin cfg0.N) :
    (dat0 V c).flushed 2 t = ((cfg0.win 2).blk t).view.read (Elt Ideal) (projAt V 0 c) := by
  show (cfg0.win 2).cut (grid0.coords t) ((dat0 V c).after 2 t) = _
  rw [after0_2]
  unfold out0_2
  rw [View.canon_unit_zero hz4]
  simp only [View.ld_unit_zero (S := S1x128x1024) hz3, View.ld_unit_zero (S := S1024x3072) hz2]
  funext y
  obtain ⟨u, h, r, d, rfl⟩ : ∃ (u : Fin 1) (h : Fin 16) (r : Fin 128) (d : Fin 64), y = ix4 u h r d :=
    ⟨y 0, y 1, y 2, y 3, eq_ix4 y⟩
  have hN : cfg0.N = 32 := N_0
  have hB : (⟨t.val / 16, by have := t.isLt; omega⟩ : Fin 2).val = t.val / 16 := rfl
  have hT : (⟨t.val % 16 * 128 + r.val, by have := r.isLt; omega⟩ : Fin 2048).val = t.val % 16 * 128 + r.val := rfl
  show k0_pay2 (iblk0 V c 0 t) (iblk0 V c 1 t) (ix4 u h r d) = projAt V 0 c (((cfg0.win 2).blk t).view.emb (ix4 u h r d))
  rw [emb_q t u h r d _ _ hB hT]
  exact block_value V c t 0 k0_pay2 pay2_apply u h r d _ _ hB hT

/-- An index of the array is in point t's block iff each coordinate is in the block's range on its axis. -/
theorem mem_q (t : Fin cfg0.N) (i : S2x16x2048x64.Idx) :
    i ∈ ((cfg0.win 2).blk t).view.set ↔ ∀ a : Fin 4, win0_2.index t a * S1x16x128x64.size a ≤ (i a).val
      ∧ (i a).val < win0_2.index t a * S1x16x128x64.size a + S1x16x128x64.size a := by
  show i ∈ ((View.whole main_v8_0).slice (win0_2.rect t)).set ↔ _
  rw [View.set_slice_whole, Rect.mem_set_unit]
  exact Iff.rfl

/-- Entry (b, h, t, d) is in the block of point 16·b + t / 128. -/
theorem cover_q (i : S2x16x2048x64.Idx) :
    ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 2048 := (i 2).isLt
  have h3 : (i 3).val < 64 := (i 3).isLt
  have hN : cfg0.N = 32 := N_0
  obtain ⟨t, ht⟩ : ∃ t : Fin cfg0.N, t.val = (i 0).val * 16 + (i 2).val / 128 := ⟨⟨(i 0).val * 16 + (i 2).val / 128, by omega⟩, rfl⟩
  obtain ⟨e0, e1, e2, e3⟩ := idx_q t
  refine ⟨t, flush0_2 t, ?_⟩
  rw [mem_q]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 128 ≤ (i 2).val ∧ (i 2).val < win0_2.index t (2 : Fin 4) * 128 + 128; omega
  | ⟨3, _⟩ => show win0_2.index t (3 : Fin 4) * 64 ≤ (i 3).val ∧ (i 3).val < win0_2.index t (3 : Fin 4) * 64 + 64; omega

/-- The array after the region is the projection. -/
theorem final_q (c : Dev nD) : (dat0 (F := Ideal) V c).arrAt 2 cfg0.N = projAt V 0 c :=
  (dat0 V c).arrAt_eq_of_cover 2 (projAt V 0 c) (fun t _ => flushed_q V c t) cover_q

/-- Entry (b, h, t, d) of the array after the region. -/
theorem final_q_apply (c : Dev nD) (b : Fin 2) (h : Fin 16) (tt : Fin 2048) (d : Fin 64) :
    (dat0 (F := Ideal) V c).arrAt 2 cfg0.N (ix4 b h tt d)
      = ∑ k : Fin 1024, inX V c (ix3 b tt k) * inW V c (ix2 k (Cert.Attn.feat 0 h d)) :=
  congrFun (final_q V c) (ix4 b h tt d)

/-! ## Result 1: window 3 -/

/-- Its block at point t = 16·b + s is (b, 0, s, 0). -/
theorem idx_k : ∀ t : Fin cfg0.N, win0_3.index t (0 : Fin 4) = t.val / 16 ∧ win0_3.index t (1 : Fin 4) = 0
    ∧ win0_3.index t (2 : Fin 4) = t.val % 16 ∧ win0_3.index t (3 : Fin 4) = 0 :=
  (by decide +kernel : ∀ t : Fin grid0.N, _)

/-- Entry (u, h, r, d) of point t's block sits at (t / 16, h, 128·(t % 16) + r, d) of the array. -/
theorem emb_k (t : Fin cfg0.N) (u : Fin 1) (h : Fin 16) (r : Fin 128) (d : Fin 64) (B : Fin 2) (T : Fin 2048)
    (hB : B.val = t.val / 16) (hT : T.val = t.val % 16 * 128 + r.val) :
    ((cfg0.win 3).blk t).view.emb (ix4 u h r d) = ix4 B h T d := by
  obtain ⟨e0, e1, e2, e3⟩ := idx_k t
  have hu := u.isLt
  refine funext fun a => Fin.ext ?_
  match a with
  | ⟨0, _⟩ => show win0_3.index t (0 : Fin 4) * 1 + 1 * u.val = B.val; omega
  | ⟨1, _⟩ => show win0_3.index t (1 : Fin 4) * 16 + 1 * h.val = h.val; omega
  | ⟨2, _⟩ => show win0_3.index t (2 : Fin 4) * 128 + 1 * r.val = T.val; omega
  | ⟨3, _⟩ => show win0_3.index t (3 : Fin 4) * 64 + 1 * d.val = d.val; omega

/-- What point t writes back is block t of the projection. -/
theorem flushed_k (c : Dev nD) (t : Fin cfg0.N) :
    (dat0 V c).flushed 3 t = ((cfg0.win 3).blk t).view.read (Elt Ideal) (projAt V 1 c) := by
  show (cfg0.win 3).cut (grid0.coords t) ((dat0 V c).after 3 t) = _
  rw [after0_3]
  unfold out0_3
  rw [View.canon_unit_zero hz4]
  simp only [View.ld_unit_zero (S := S1x128x1024) hz3, View.ld_unit_zero (S := S1024x3072) hz2]
  funext y
  obtain ⟨u, h, r, d, rfl⟩ : ∃ (u : Fin 1) (h : Fin 16) (r : Fin 128) (d : Fin 64), y = ix4 u h r d :=
    ⟨y 0, y 1, y 2, y 3, eq_ix4 y⟩
  have hN : cfg0.N = 32 := N_0
  have hB : (⟨t.val / 16, by have := t.isLt; omega⟩ : Fin 2).val = t.val / 16 := rfl
  have hT : (⟨t.val % 16 * 128 + r.val, by have := r.isLt; omega⟩ : Fin 2048).val = t.val % 16 * 128 + r.val := rfl
  show k0_pay3 (iblk0 V c 0 t) (iblk0 V c 1 t) (ix4 u h r d) = projAt V 1 c (((cfg0.win 3).blk t).view.emb (ix4 u h r d))
  rw [emb_k t u h r d _ _ hB hT]
  exact block_value V c t 1 k0_pay3 pay3_apply u h r d _ _ hB hT

/-- An index of the array is in point t's block iff each coordinate is in the block's range on its axis. -/
theorem mem_k (t : Fin cfg0.N) (i : S2x16x2048x64.Idx) :
    i ∈ ((cfg0.win 3).blk t).view.set ↔ ∀ a : Fin 4, win0_3.index t a * S1x16x128x64.size a ≤ (i a).val
      ∧ (i a).val < win0_3.index t a * S1x16x128x64.size a + S1x16x128x64.size a := by
  show i ∈ ((View.whole main_v8_1).slice (win0_3.rect t)).set ↔ _
  rw [View.set_slice_whole, Rect.mem_set_unit]
  exact Iff.rfl

/-- Entry (b, h, t, d) is in the block of point 16·b + t / 128. -/
theorem cover_k (i : S2x16x2048x64.Idx) :
    ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 2048 := (i 2).isLt
  have h3 : (i 3).val < 64 := (i 3).isLt
  have hN : cfg0.N = 32 := N_0
  obtain ⟨t, ht⟩ : ∃ t : Fin cfg0.N, t.val = (i 0).val * 16 + (i 2).val / 128 := ⟨⟨(i 0).val * 16 + (i 2).val / 128, by omega⟩, rfl⟩
  obtain ⟨e0, e1, e2, e3⟩ := idx_k t
  refine ⟨t, flush0_3 t, ?_⟩
  rw [mem_k]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 128 ≤ (i 2).val ∧ (i 2).val < win0_3.index t (2 : Fin 4) * 128 + 128; omega
  | ⟨3, _⟩ => show win0_3.index t (3 : Fin 4) * 64 ≤ (i 3).val ∧ (i 3).val < win0_3.index t (3 : Fin 4) * 64 + 64; omega

/-- The array after the region is the projection. -/
theorem final_k (c : Dev nD) : (dat0 (F := Ideal) V c).arrAt 3 cfg0.N = projAt V 1 c :=
  (dat0 V c).arrAt_eq_of_cover 3 (projAt V 1 c) (fun t _ => flushed_k V c t) cover_k

/-- Entry (b, h, t, d) of the array after the region. -/
theorem final_k_apply (c : Dev nD) (b : Fin 2) (h : Fin 16) (tt : Fin 2048) (d : Fin 64) :
    (dat0 (F := Ideal) V c).arrAt 3 cfg0.N (ix4 b h tt d)
      = ∑ k : Fin 1024, inX V c (ix3 b tt k) * inW V c (ix2 k (Cert.Attn.feat 1 h d)) :=
  congrFun (final_k V c) (ix4 b h tt d)

/-! ## Result 2: window 4 -/

/-- Its block at point t = 16·b + s is (b, 0, s, 0). -/
theorem idx_v : ∀ t : Fin cfg0.N, win0_4.index t (0 : Fin 4) = t.val / 16 ∧ win0_4.index t (1 : Fin 4) = 0
    ∧ win0_4.index t (2 : Fin 4) = t.val % 16 ∧ win0_4.index t (3 : Fin 4) = 0 :=
  (by decide +kernel : ∀ t : Fin grid0.N, _)

/-- Entry (u, h, r, d) of point t's block sits at (t / 16, h, 128·(t % 16) + r, d) of the array. -/
theorem emb_v (t : Fin cfg0.N) (u : Fin 1) (h : Fin 16) (r : Fin 128) (d : Fin 64) (B : Fin 2) (T : Fin 2048)
    (hB : B.val = t.val / 16) (hT : T.val = t.val % 16 * 128 + r.val) :
    ((cfg0.win 4).blk t).view.emb (ix4 u h r d) = ix4 B h T d := by
  obtain ⟨e0, e1, e2, e3⟩ := idx_v t
  have hu := u.isLt
  refine funext fun a => Fin.ext ?_
  match a with
  | ⟨0, _⟩ => show win0_4.index t (0 : Fin 4) * 1 + 1 * u.val = B.val; omega
  | ⟨1, _⟩ => show win0_4.index t (1 : Fin 4) * 16 + 1 * h.val = h.val; omega
  | ⟨2, _⟩ => show win0_4.index t (2 : Fin 4) * 128 + 1 * r.val = T.val; omega
  | ⟨3, _⟩ => show win0_4.index t (3 : Fin 4) * 64 + 1 * d.val = d.val; omega

/-- What point t writes back is block t of the projection. -/
theorem flushed_v (c : Dev nD) (t : Fin cfg0.N) :
    (dat0 V c).flushed 4 t = ((cfg0.win 4).blk t).view.read (Elt Ideal) (projAt V 2 c) := by
  show (cfg0.win 4).cut (grid0.coords t) ((dat0 V c).after 4 t) = _
  rw [after0_4]
  unfold out0_4
  rw [View.canon_unit_zero hz4]
  simp only [View.ld_unit_zero (S := S1x128x1024) hz3, View.ld_unit_zero (S := S1024x3072) hz2]
  funext y
  obtain ⟨u, h, r, d, rfl⟩ : ∃ (u : Fin 1) (h : Fin 16) (r : Fin 128) (d : Fin 64), y = ix4 u h r d :=
    ⟨y 0, y 1, y 2, y 3, eq_ix4 y⟩
  have hN : cfg0.N = 32 := N_0
  have hB : (⟨t.val / 16, by have := t.isLt; omega⟩ : Fin 2).val = t.val / 16 := rfl
  have hT : (⟨t.val % 16 * 128 + r.val, by have := r.isLt; omega⟩ : Fin 2048).val = t.val % 16 * 128 + r.val := rfl
  show k0_pay4 (iblk0 V c 0 t) (iblk0 V c 1 t) (ix4 u h r d) = projAt V 2 c (((cfg0.win 4).blk t).view.emb (ix4 u h r d))
  rw [emb_v t u h r d _ _ hB hT]
  exact block_value V c t 2 k0_pay4 pay4_apply u h r d _ _ hB hT

/-- An index of the array is in point t's block iff each coordinate is in the block's range on its axis. -/
theorem mem_v (t : Fin cfg0.N) (i : S2x16x2048x64.Idx) :
    i ∈ ((cfg0.win 4).blk t).view.set ↔ ∀ a : Fin 4, win0_4.index t a * S1x16x128x64.size a ≤ (i a).val
      ∧ (i a).val < win0_4.index t a * S1x16x128x64.size a + S1x16x128x64.size a := by
  show i ∈ ((View.whole main_v8_2).slice (win0_4.rect t)).set ↔ _
  rw [View.set_slice_whole, Rect.mem_set_unit]
  exact Iff.rfl

/-- Entry (b, h, t, d) is in the block of point 16·b + t / 128. -/
theorem cover_v (i : S2x16x2048x64.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  have hN : cfg0.N = 32 := N_0
  obtain ⟨t, ht⟩ : ∃ t : Fin cfg0.N, t.val = (i 0).val * 16 + (i 2).val / 128 := ⟨⟨(i 0).val * 16 + (i 2).val / 128, by omega⟩, rfl⟩
  obtain ⟨e0, e1, e2, e3⟩ := idx_v t
  refine ⟨t, flush0_4 t, ?_⟩
  rw [mem_v]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 128 ≤ (i 2).val ∧ (i 2).val < win0_4.index t (2 : Fin 4) * 128 + 128; omega
  | ⟨3, _⟩ => show win0_4.index t (3 : Fin 4) * 64 ≤ (i 3).val ∧ (i 3).val < win0_4.index t (3 : Fin 4) * 64 + 64; omega

/-- The array after the region is the projection. -/
theorem final_v (c : Dev nD) : (dat0 (F := Ideal) V c).arrAt 4 cfg0.N = projAt V 2 c :=
  (dat0 V c).arrAt_eq_of_cover 4 (projAt V 2 c) (fun t _ => flushed_v V c t) cover_v

/-- Entry (b, h, t, d) of the array after the region. -/
theorem final_v_apply (c : Dev nD) (b : Fin 2) (h : Fin 16) (tt : Fin 2048) (d : Fin 64) :
    (dat0 (F := Ideal) V c).arrAt 4 cfg0.N (ix4 b h tt d)
      = ∑ k : Fin 1024, inX V c (ix3 b tt k) * inW V c (ix2 k (Cert.Attn.feat 2 h d)) :=
  congrFun (final_v V c) (ix4 b h tt d)

end Cert.KernelIdeal.Region0

end
-- ==== Proof.AttnHead.lean ====
/- One head of attention as the attention kernel's body computes it, read at an entry.

   From a tile of 256 query rows Qh [256, 64] and the head's keys Kh and values Vh [2048, 64]: the scores
   Qh · Khᵀ times 1/8, each row's softmax centred at the row maximum (taken from -inf), the product with Vh.
   Entry (r, d) depends on query row r only: it is the softmax-weighted sum over the 2048 keys of Vh(k, d). -/
import proofs.«118262_j10471130267932_2_alg».proof.Proof.Gen.KernelIdeal.Skeleton
import proofs.«118262_j10471130267932_2_alg».proof.Proof.Spec
import proofs.«118262_j10471130267932_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.AttnHead

open Cert.KernelIdeal Cert.KernelIdeal.Gen
open Idealize.ShloMosaic Idealize.ShloMosaic.ValueIdx Cert.LibRowSoftmax Cert.Attn

/-- One query row's attention over a head's keys and values, at coordinate d. -/
def rowAttn (Qrow : Fin 64 → EReal) (K V : Fin 2048 → Fin 64 → EReal) (d : Fin 64) : EReal :=
  ∑ k : Fin 2048, softmaxFrom negInf (fun k' => (∑ e : Fin 64, Qrow e * K k' e) * scale) k * V k d

/-- A head's attention at query row q is that row's. -/
theorem headAttn_eq_rowAttn (Q K V : Fin 2048 → Fin 64 → EReal) (q : Fin 2048) (d : Fin 64) :
    headAttn Q K V q d = rowAttn (Q q) K V d := rfl

/-- The body's chain of operations for one head. -/
def headChain (Qh : FVec Ideal S256x64 .bf16) (Kh Vh : FVec Ideal S2048x64 .bf16) : FVec Ideal S256x64 .bf16 :=
  truncf .bf16 (matmul dot_S256x2048_S2048x64_S256x64_1_0_0_1_n_n none
    (truncf .bf16 (rowSoftmax
      (mulf (matmul dot_S256x64_S64x2048_S256x2048_1_0_0_1_n_n none Qh
          (transpose S64x2048 [1, 0] Kh transposes_S2048x64_p1_0_S64x2048) (constant S256x2048 .f32 0x00000000#32))
        (broadcast S256x2048 (Scalar.ofBits (F := Ideal) .f32 0x3E000000#32)))
      reduces_S256x2048_S256 shapeCasts_S256_S256x1 broadcasts_S256x1_S256x2048) bitsLt_bf16_f32)
    Vh (constant S256x64 .f32 0x00000000#32)) bitsLt_bf16_f32

/-- The first head's payload is the chain on its three re-laid loads. -/
theorem pay2_eq (v0 : Vec Ideal S1x1x256x64 .bf16) (v2 v4 : Vec Ideal S1x1x2048x64 .bf16) :
    k1_pay2 v0 v2 v4 = headChain (shapeCast S256x64 v0 shapeCasts_S1x1x256x64_S256x64)
      (shapeCast S2048x64 v2 shapeCasts_S1x1x2048x64_S2048x64) (shapeCast S2048x64 v4 shapeCasts_S1x1x2048x64_S2048x64) := rfl

/-- The stored value: the first head's result beside the chain on the second head's loads, as one [1, 256, 128] block. -/
theorem pay1_eq (v21 v23 : FVec Ideal S256x64 .bf16) (v25 v27 : FVec Ideal S2048x64 .bf16) :
    k1_pay1 v21 v23 v25 v27 = shapeCast S1x256x128
      (concatenate S256x128 1 [⟨S256x64, v21⟩, ⟨S256x64, headChain v23 v25 v27⟩] concatenates_S256x64_S256x64_S256x128_d1)
      shapeCasts_S256x128_S1x256x128 := rfl

/-- The scores of row r: entry (r, k) of Qh · Khᵀ times 1/8. -/
theorem scores_apply (Qh : FVec Ideal S256x64 .bf16) (Kh : FVec Ideal S2048x64 .bf16) (r : Fin 256) (k : Fin 2048) :
    mulf (matmul dot_S256x64_S64x2048_S256x2048_1_0_0_1_n_n none Qh
          (transpose S64x2048 [1, 0] Kh transposes_S2048x64_p1_0_S64x2048) (constant S256x2048 .f32 0x00000000#32))
        (broadcast S256x2048 (Scalar.ofBits (F := Ideal) .f32 0x3E000000#32)) (ix2 r k)
      = (∑ e : Fin 64, Qh (ix2 r e) * Kh (ix2 k e)) * scale := by
  refine (mulf_apply _ _ _).trans ?_
  refine congrArg₂ (· * ·) ?_ rfl
  refine (PlainMatmul.matmul_plain_zero_apply (m := 256) (k := 64) (n := 2048) none Qh
    (transpose S64x2048 [1, 0] Kh transposes_S2048x64_p1_0_S64x2048) r k).trans ?_
  refine Finset.sum_congr rfl fun e _ => congrArg (Qh (ix2 r e) * ·) ?_
  exact transpose_apply [1, 0] Kh transposes_S2048x64_p1_0_S64x2048 (ix2 e k) (ix2 k e) (fun b => by
    match b with
    | ⟨0, _⟩ => rfl
    | ⟨1, _⟩ => rfl)

/-- Entry (r, d) of the chain is row r's attention at d. -/
theorem headChain_apply (Qh : FVec Ideal S256x64 .bf16) (Kh Vh : FVec Ideal S2048x64 .bf16) (r : Fin 256) (d : Fin 64) :
    headChain Qh Kh Vh (ix2 r d)
      = rowAttn (fun e => Qh (ix2 r e)) (fun k e => Kh (ix2 k e)) (fun k e => Vh (ix2 k e)) d := by
  unfold headChain rowAttn
  refine (PlainMatmul.matmul_plain_zero_apply (m := 256) (k := 2048) (n := 64) none _ Vh r d).trans ?_
  refine Finset.sum_congr rfl fun k _ => congrArg (· * Vh (ix2 k d)) ?_
  refine (rowSoftmax_apply _ reduces_S256x2048_S256 shapeCasts_S256_S256x1 broadcasts_S256x1_S256x2048 r k).trans ?_
  refine congrArg (fun row => softmaxFrom negInf row k) (funext fun k' => ?_)
  exact scores_apply Qh Kh r k'

end Cert.KernelIdeal.AttnHead

end
-- ==== Proof.LibUnitAxes.lean ====
/- Two leading unit axes dropped from, or added to, a matrix.

   A block of a rank-4 array taken one batch entry and one head at a time has shape [1, 1, a, b]; the body works on
   the [a, b] matrix and stores its result back as [1, 1, a, b].  Read at an index the two casts keep the matrix
   coordinates and put 0 on (or ignore) the unit axes. -/
import Idealize.ShloMosaic.Lib.Pipeline.Value
import Idealize.ShloMosaic.Lib.ValueIdx

namespace Cert.LibUnitAxes

open Idealize.ShloMosaic Idealize.ShloMosaic.ValueIdx

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, u', i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Cert.LibUnitAxes
-- ==== Proof.Region1.lean ====
/- The attention kernel's output array, read at an entry.

   The grid has a point per batch b, pair of heads hp and tile ti of 256 query rows.  A point loads the tile of
   queries and all 2048 keys and values of its two heads, and writes the [256, 128] block of the output at rows
   ti·256 … of batch b and features hp·128 …: the first head's attention in columns 0–63, the second's in 64–127.
   So entry (b, t, c) of the output is the attention of head c / 64 at query row t and coordinate c mod 64, and the
   blocks of the 128 points cover the array. -/
import proofs.«118262_j10471130267932_2_alg».proof.Proof.Gen.KernelIdeal.Frame
import proofs.«118262_j10471130267932_2_alg».proof.Proof.AttnHead
import proofs.«118262_j10471130267932_2_alg».proof.Proof.LibUnitAxes
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.AttnHead
open Idealize.ShloMosaic Idealize.ShloMosaic.TcCoe Idealize.ShloMosaic.ValueIdx Idealize.SL.Sem Cert.Attn
open Idealize.ShloMosaic.Pipeline (Dat)

/-! ## One query row's attention respects entrywise equality -/

theorem rowAttn_congr {Qr Qr' : Fin 64 → EReal} {K K' V V' : Fin 2048 → Fin 64 → EReal} {d d' : Fin 64}
    (hQ : ∀ e, Qr e = Qr' e) (hK : ∀ k e, K k e = K' k e) (hV : ∀ k e, V k e = V' k e) (hd : d = d') :
    rowAttn Qr K V d = rowAttn Qr' K' V' d' := by
  have e1 : Qr = Qr' := funext hQ
  have e2 : K = K' := funext fun k => funext (hK k)
  have e3 : V = V' := funext fun k => funext (hV k)
  rw [e1, e2, e3, hd]

/-! ## The body's stored block at an entry -/

theorem hz3 : (![0, 0, 0] : Fin 3 → Nat) = fun _ => 0 := funext fun a => by fin_cases a <;> rfl

/-- The first head's loads: entry (q, e) of the re-laid load is entry (0, 0, q, e) of the window's block. -/
theorem ld_head0 {a : ℕ} (x : Vec Ideal ⟨4, ![1, 2, a, 64]⟩ .bf16) (inb) (h : (⟨4, ![1, 1, a, 64]⟩ : Shape).ShapeCasts ⟨2, ![a, 64]⟩)
    (q : Fin a) (e : Fin 64) :
    shapeCast ⟨2, ![a, 64]⟩ (View.ld x (Rect.unit (s := ⟨4, ![1, 2, a, 64]⟩) ![0, 0, 0, 0] (⟨4, ![1, 1, a, 64]⟩ : Shape).size inb)) h (ix2 q e)
      = x (ix4 (0 : Fin 1) (0 : Fin 2) q e) := by
  refine (Cert.LibUnitAxes.shapeCast_11ab_ab_apply _ h q e).trans ?_
  show x _ = x _
  refine congrArg x (funext fun ax => Fin.ext ?_)
  match ax with
  | ⟨0, _⟩ => rfl
  | ⟨1, _⟩ => rfl
  | ⟨2, _⟩ => show 0 + 1 * q.val = q.val; omega
  | ⟨3, _⟩ => show 0 + 1 * e.val = e.val; omega

/-- The second head's loads: entry (q, e) of the re-laid load is entry (0, 1, q, e) of the window's block. -/
theorem ld_head1 {a : ℕ} (x : Vec Ideal ⟨4, ![1, 2, a, 64]⟩ .bf16) (inb) (h : (⟨4, ![1, 1, a, 64]⟩ : Shape).ShapeCasts ⟨2, ![a, 64]⟩)
    (q : Fin a) (e : Fin 64) :
    shapeCast ⟨2, ![a, 64]⟩ (View.ld x (Rect.unit (s := ⟨4, ![1, 2, a, 64]⟩) ![0, 1, 0, 0] (⟨4, ![1, 1, a, 64]⟩ : Shape).size inb)) h (ix2 q e)
      = x (ix4 (0 : Fin 1) (1 : Fin 2) q e) := by
  refine (Cert.LibUnitAxes.shapeCast_11ab_ab_apply _ h q e).trans ?_
  show x _ = x _
  refine congrArg x (funext fun ax => Fin.ext ?_)
  match ax with
  | ⟨0, _⟩ => rfl
  | ⟨1, _⟩ => rfl
  | ⟨2, _⟩ => show 0 + 1 * q.val = q.val; omega
  | ⟨3, _⟩ => show 0 + 1 * e.val = e.val; omega

variable (x0 : Vec Ideal S1x2x256x64 .bf16) (x1 x2 : Vec Ideal S1x2x2048x64 .bf16)

/-- The stored block is the two heads' chains side by side. -/
theorem out_eq : out1_3 x0 x1 x2 = shapeCast S1x256x128
      (concatenate S256x128 1
        [⟨S256x64, headChain (shapeCast S256x64 (View.ld x0 r1_0) shapeCasts_S1x1x256x64_S256x64)
            (shapeCast S2048x64 (View.ld x1 r1_1) shapeCasts_S1x1x2048x64_S2048x64)
            (shapeCast S2048x64 (View.ld x2 r1_1) shapeCasts_S1x1x2048x64_S2048x64)⟩,
         ⟨S256x64, headChain (shapeCast S256x64 (View.ld x0 r1_2) shapeCasts_S1x1x256x64_S256x64)
            (shapeCast S2048x64 (View.ld x1 r1_3) shapeCasts_S1x1x2048x64_S2048x64)
            (shapeCast S2048x64 (View.ld x2 r1_3) shapeCasts_S1x1x2048x64_S2048x64)⟩]
        concatenates_S256x64_S256x64_S256x128_d1) shapeCasts_S256x128_S1x256x128 := by
  unfold out1_3
  rw [View.canon_unit_zero hz3, pay1_eq, pay2_eq]
  rfl

/-- Entry (0, r, c) of the [1, 256, 128] block is entry (r, c) of the [256, 128] matrix it re-lays. -/
theorem block_cast_apply {α : Type} (v : S256x128.Idx → α) (u : Fin 1) (r : Fin 256) (cc : Fin 128) :
    shapeCast S1x256x128 v shapeCasts_S256x128_S1x256x128 (ix3 u r cc) = v (ix2 r cc) :=
  shapeCast_apply v shapeCasts_S256x128_S1x256x128 _ _ (by
    have hu : u.val = 0 := by omega
    rw [Shape.rowMajor_val_two, Shape.rowMajor_val_three]
    show r.val * 128 + cc.val = (u.val * 256 + r.val) * 128 + cc.val
    rw [hu]; omega)

/-- Columns 0–63 of the stored block: the first head's attention of query row r. -/
theorem out_left (u : Fin 1) (r : Fin 256) (d : Fin 64) :
    out1_3 x0 x1 x2 (ix3 u r (⟨d.val, by have := d.isLt; omega⟩ : Fin 128))
      = rowAttn (fun e => x0 (ix4 (0 : Fin 1) (0 : Fin 2) r e)) (fun k e => x1 (ix4 (0 : Fin 1) (0 : Fin 2) k e))
          (fun k e => x2 (ix4 (0 : Fin 1) (0 : Fin 2) k e)) d := by
  rw [out_eq]
  refine (block_cast_apply _ u r _).trans ?_
  refine (concatenate_pair_apply_left (t := S256x128) (s₁ := S256x64) (s₂ := S256x64) (1 : Fin 2) _ _ concatenates_S256x64_S256x64_S256x128_d1 (ix2 r (⟨d.val, by have := d.isLt; omega⟩ : Fin 128)) rfl (ix2 r d) (fun b => by
    match b with
    | ⟨0, _⟩ => rfl
    | ⟨1, _⟩ => rfl)).trans ?_
  refine (headChain_apply _ _ _ r d).trans ?_
  exact rowAttn_congr (fun e => ld_head0 x0 _ _ r e) (fun k e => ld_head0 x1 _ _ k e) (fun k e => ld_head0 x2 _ _ k e) rfl

/-- Columns 64–127 of the stored block: the second head's attention of query row r. -/
theorem out_right (u : Fin 1) (r : Fin 256) (d : Fin 64) :
    out1_3 x0 x1 x2 (ix3 u r (⟨64 + d.val, by have := d.isLt; omega⟩ : Fin 128))
      = rowAttn (fun e => x0 (ix4 (0 : Fin 1) (1 : Fin 2) r e)) (fun k e => x1 (ix4 (0 : Fin 1) (1 : Fin 2) k e))
          (fun k e => x2 (ix4 (0 : Fin 1) (1 : Fin 2) k e)) d := by
  rw [out_eq]
  refine (block_cast_apply _ u r _).trans ?_
  refine (concatenate_pair_apply_right (t := S256x128) (s₁ := S256x64) (s₂ := S256x64) (1 : Fin 2) _ _ concatenates_S256x64_S256x64_S256x128_d1 (ix2 r (⟨64 + d.val, by have := d.isLt; omega⟩ : Fin 128)) rfl rfl (ix2 r d) (fun b hb => by
    match b with
    | ⟨0, _⟩ => rfl
    | ⟨1, _⟩ => exact absurd rfl hb) (by show d.val + 64 = 64 + d.val; omega)).trans ?_
  refine (headChain_apply _ _ _ r d).trans ?_
  exact rowAttn_congr (fun e => ld_head1 x0 _ _ r e) (fun k e => ld_head1 x1 _ _ k e) (fun k e => ld_head1 x2 _ _ k e) rfl

variable {x0 x1 x2} in
/-- Column j·64 + d of the stored block: head j's attention of query row r at coordinate d. -/
theorem out_at (x0 : Vec Ideal S1x2x256x64 .bf16) (x1 x2 : Vec Ideal S1x2x2048x64 .bf16)
    (u : Fin 1) (r : Fin 256) (j : Fin 2) (d : Fin 64) (h : j.val * 64 + d.val < 128) :
    out1_3 x0 x1 x2 (ix3 u r (⟨j.val * 64 + d.val, h⟩ : Fin 128))
      = rowAttn (fun e => x0 (ix4 (0 : Fin 1) j r e)) (fun k e => x1 (ix4 (0 : Fin 1) j k e))
          (fun k e => x2 (ix4 (0 : Fin 1) j k e)) d := by
  match j, h with
  | ⟨0, _⟩, h =>
    have e : (⟨(⟨0, by decide⟩ : Fin 2).val * 64 + d.val, h⟩ : Fin 128) = ⟨d.val, by have := d.isLt; omega⟩ :=
      Fin.ext (by show 0 * 64 + d.val = d.val; omega)
    rw [e]
    exact out_left x0 x1 x2 u r d
  | ⟨1, _⟩, h =>
    have e : (⟨(⟨1, by decide⟩ : Fin 2).val * 64 + d.val, h⟩ : Fin 128) = ⟨64 + d.val, by have := d.isLt; omega⟩ :=
      Fin.ext (by show 1 * 64 + d.val = 64 + d.val; omega)
    rw [e]
    exact out_right x0 x1 x2 u r d

/-! ## The output array -/

section Array

variable (V : (c : Dev nD) → (b : Ref sig .tc) → Buf (Elt Ideal) ((c : Thread nD τ).loc b))

/-- The queries, keys and values as the kernel finds them. -/
abbrev inQ (c : Dev nD) : FVec Ideal S2x16x2048x64 .bf16 := V c main_v8_0
abbrev inK (c : Dev nD) : FVec Ideal S2x16x2048x64 .bf16 := V c main_v8_1
abbrev inV (c : Dev nD) : FVec Ideal S2x16x2048x64 .bf16 := V c main_v8_2

/-- Entry (b, q, cc) of the attention output: head cc / 64 at query row q and coordinate cc mod 64. -/
def attnAt (Q K Vv : FVec Ideal S2x16x2048x64 .bf16) (b : Fin 2) (q : Fin 2048) (cc : Fin 1024) : EReal :=
  rowAttn (fun e => Q (ix4 b (headOf cc) q e)) (fun k e => K (ix4 b (headOf cc) k e))
    (fun k e => Vv (ix4 b (headOf cc) k e)) (coordOf cc)

/-- What the output array ends holding. -/
def G (c : Dev nD) : Vec Ideal S2x2048x1024 .bf16 :=
  fun i => attnAt (inQ V c) (inK V c) (inV V c) (i 0) (i 1) (i 2)

/-- The printed index maps over the grid: the three inputs' block indices from the output's. -/
theorem idx_facts : ∀ t : Fin cfg1.N,
    win1_0.index t (0 : Fin 4) = win1_3.index t (0 : Fin 3) ∧ win1_0.index t (1 : Fin 4) = win1_3.index t (2 : Fin 3)
    ∧ win1_0.index t (2 : Fin 4) = win1_3.index t (1 : Fin 3) ∧ win1_0.index t (3 : Fin 4) = 0
    ∧ win1_1.index t (0 : Fin 4) = win1_3.index t (0 : Fin 3) ∧ win1_1.index t (1 : Fin 4) = win1_3.index t (2 : Fin 3)
    ∧ win1_1.index t (2 : Fin 4) = 0 ∧ win1_1.index t (3 : Fin 4) = 0
    ∧ win1_2.index t (0 : Fin 4) = win1_3.index t (0 : Fin 3) ∧ win1_2.index t (1 : Fin 4) = win1_3.index t (2 : Fin 3)
    ∧ win1_2.index t (2 : Fin 4) = 0 ∧ win1_2.index t (3 : Fin 4) = 0
    ∧ win1_3.index t (0 : Fin 3) < 2 ∧ win1_3.index t (1 : Fin 3) < 8 ∧ win1_3.index t (2 : Fin 3) < 8 :=
  (by decide +kernel : ∀ t : Fin grid1.N, _)

/-- Every block of the output is some point's. -/
theorem idx_onto : ∀ (q0 : Fin 2) (q1 : Fin 8) (q2 : Fin 8), ∃ t : Fin cfg1.N, win1_3.index t = ![q0.val, q1.val, q2.val] :=
  (by decide +kernel : ∀ (q0 : Fin 2) (q1 : Fin 8) (q2 : Fin 8), ∃ t : Fin grid1.N, win1_3.index t = ![q0.val, q1.val, q2.val])

/-- The queries' block at a point, read off the array. -/
theorem blkQ (c : Dev nD) (t : Fin cfg1.N) (j : Fin 2) (r : Fin 256) (e : Fin 64) (B : Fin 2) (H : Fin 16) (q : Fin 2048)
    (hB : B.val = win1_0.index t (0 : Fin 4)) (hH : H.val = win1_0.index t (1 : Fin 4) * 2 + j.val)
    (hq : q.val = win1_0.index t (2 : Fin 4) * 256 + r.val) (h3 : win1_0.index t (3 : Fin 4) = 0) :
    iblk1 V c 0 t (ix4 (0 : Fin 1) j r e) = inQ V c (ix4 B H q e) := by
  show V c main_v8_0 (((cfg1.win 0).blk t).view.emb (ix4 (0 : Fin 1) j r e)) = V c main_v8_0 (ix4 B H q e)
  refine congrArg (V c main_v8_0) (funext fun a => Fin.ext ?_)
  match a with
  | ⟨0, _⟩ => show win1_0.index t (0 : Fin 4) * 1 + 1 * 0 = B.val; omega
  | ⟨1, _⟩ => show win1_0.index t (1 : Fin 4) * 2 + 1 * j.val = H.val; omega
  | ⟨2, _⟩ => show win1_0.index t (2 : Fin 4) * 256 + 1 * r.val = q.val; omega
  | ⟨3, _⟩ => show win1_0.index t (3 : Fin 4) * 64 + 1 * e.val = e.val; omega

/-- The keys' block at a point, read off the array. -/
theorem blkK (c : Dev nD) (t : Fin cfg1.N) (j : Fin 2) (k : Fin 2048) (e : Fin 64) (B : Fin 2) (H : Fin 16)
    (hB : B.val = win1_1.index t (0 : Fin 4)) (hH : H.val = win1_1.index t (1 : Fin 4) * 2 + j.val)
    (h2 : win1_1.index t (2 : Fin 4) = 0) (h3 : win1_1.index t (3 : Fin 4) = 0) :
    iblk1 V c 1 t (ix4 (0 : Fin 1) j k e) = inK V c (ix4 B H k e) := by
  show V c main_v8_1 (((cfg1.win 1).blk t).view.emb (ix4 (0 : Fin 1) j k e)) = V c main_v8_1 (ix4 B H k e)
  refine congrArg (V c main_v8_1) (funext fun a => Fin.ext ?_)
  match a with
  | ⟨0, _⟩ => show win1_1.index t (0 : Fin 4) * 1 + 1 * 0 = B.val; omega
  | ⟨1, _⟩ => show win1_1.index t (1 : Fin 4) * 2 + 1 * j.val = H.val; omega
  | ⟨2, _⟩ => show win1_1.index t (2 : Fin 4) * 2048 + 1 * k.val = k.val; omega
  | ⟨3, _⟩ => show win1_1.index t (3 : Fin 4) * 64 + 1 * e.val = e.val; omega

/-- The values' block at a point, read off the array. -/
theorem blkV (c : Dev nD) (t : Fin cfg1.N) (j : Fin 2) (k : Fin 2048) (e : Fin 64) (B : Fin 2) (H : Fin 16)
    (hB : B.val = win1_2.index t (0 : Fin 4)) (hH : H.val = win1_2.index t (1 : Fin 4) * 2 + j.val)
    (h2 : win1_2.index t (2 : Fin 4) = 0) (h3 : win1_2.index t (3 : Fin 4) = 0) :
    iblk1 V c 2 t (ix4 (0 : Fin 1) j k e) = inV V c (ix4 B H k e) := by
  show V c main_v8_2 (((cfg1.win 2).blk t).view.emb (ix4 (0 : Fin 1) j k e)) = V c main_v8_2 (ix4 B H k e)
  refine congrArg (V c main_v8_2) (funext fun a => Fin.ext ?_)
  match a with
  | ⟨0, _⟩ => show win1_2.index t (0 : Fin 4) * 1 + 1 * 0 = B.val; omega
  | ⟨1, _⟩ => show win1_2.index t (1 : Fin 4) * 2 + 1 * j.val = H.val; omega
  | ⟨2, _⟩ => show win1_2.index t (2 : Fin 4) * 2048 + 1 * k.val = k.val; omega
  | ⟨3, _⟩ => show win1_2.index t (3 : Fin 4) * 64 + 1 * e.val = e.val; omega

/-- What a point writes back is its block of the output array's function. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  obtain ⟨e00, e01, e02, e03, e10, e11, e12, e13, e20, e21, e22, e23, b0, b1, b2⟩ := idx_facts t
  funext y
  obtain ⟨u, r, cc, rfl⟩ : ∃ (u : Fin 1) (r : Fin 256) (cc : Fin 128), y = ix3 u r cc := ⟨y 0, y 1, y 2, eq_ix3 y⟩
  obtain ⟨j, d, h, rfl⟩ : ∃ (j : Fin 2) (d : Fin 64) (h : j.val * 64 + d.val < 128), cc = ⟨j.val * 64 + d.val, h⟩ :=
    ⟨⟨cc.val / 64, by have := cc.isLt; omega⟩, ⟨cc.val % 64, Nat.mod_lt _ (by decide)⟩, by have := cc.isLt; show cc.val / 64 * 64 + cc.val % 64 < 128; omega,
      Fin.ext (by show cc.val = cc.val / 64 * 64 + cc.val % 64; omega)⟩
  have hu : u.val = 0 := by have := u.isLt; omega
  have hj := j.isLt
  have hd := d.isLt
  have hr := r.isLt
  show out1_3 (iblk1 V c 0 t) (iblk1 V c 1 t) (iblk1 V c 2 t) (ix3 u r ⟨j.val * 64 + d.val, h⟩)
    = G V c (((cfg1.win 3).blk t).view.emb (ix3 u r ⟨j.val * 64 + d.val, h⟩))
  refine (out_at (iblk1 V c 0 t) (iblk1 V c 1 t) (iblk1 V c 2 t) u r j d h).trans ?_
  unfold G attnAt
  have hB : ((((cfg1.win 3).blk t).view.emb (ix3 u r ⟨j.val * 64 + d.val, h⟩)) 0).val = win1_3.index t (0 : Fin 3) := by
    show win1_3.index t (0 : Fin 3) * 1 + 1 * u.val = win1_3.index t (0 : Fin 3); omega
  have hq : ((((cfg1.win 3).blk t).view.emb (ix3 u r ⟨j.val * 64 + d.val, h⟩)) 1).val = win1_3.index t (1 : Fin 3) * 256 + r.val := by
    show win1_3.index t (1 : Fin 3) * 256 + 1 * r.val = win1_3.index t (1 : Fin 3) * 256 + r.val; omega
  have hc : ((((cfg1.win 3).blk t).view.emb (ix3 u r ⟨j.val * 64 + d.val, h⟩)) 2).val = win1_3.index t (2 : Fin 3) * 128 + (j.val * 64 + d.val) := by
    show win1_3.index t (2 : Fin 3) * 128 + 1 * (j.val * 64 + d.val) = win1_3.index t (2 : Fin 3) * 128 + (j.val * 64 + d.val); omega
  have hH : (headOf ((((cfg1.win 3).blk t).view.emb (ix3 u r ⟨j.val * 64 + d.val, h⟩)) 2)).val = win1_3.index t (2 : Fin 3) * 2 + j.val := by
    show ((((cfg1.win 3).blk t).view.emb (ix3 u r ⟨j.val * 64 + d.val, h⟩)) 2).val / 64 = _
    rw [hc]; omega
  refine rowAttn_congr (fun e => blkQ V c t j r e _ _ _ (by rw [hB, e00]) (by rw [hH, e01]) (by rw [hq, e02]) e03)
    (fun k e => blkK V c t j k e _ _ (by rw [hB, e10]) (by rw [hH, e11]) e12 e13)
    (fun k e => blkV V c t j k e _ _ (by rw [hB, e20]) (by rw [hH, e21]) e22 e23) ?_
  refine Fin.ext ?_
  show d.val = ((((cfg1.win 3).blk t).view.emb (ix3 u r ⟨j.val * 64 + d.val, h⟩)) 2).val % 64
  rw [hc]; omega

/-- An index of the array is in a point's block iff each coordinate is in the block's range on its axis. -/
theorem mem_blk (t : Fin cfg1.N) (i : S2x2048x1024.Idx) :
    i ∈ ((cfg1.win 3).blk t).view.set ↔ ∀ a : Fin 3, win1_3.index t a * S1x256x128.size a ≤ (i a).val
      ∧ (i a).val < win1_3.index t a * S1x256x128.size a + S1x256x128.size a := by
  show i ∈ ((View.whole main_v9).slice (win1_3.rect t)).set ↔ _
  rw [View.set_slice_whole, Rect.mem_set_unit]
  exact Iff.rfl

/-- The blocks cover the array: row q of batch b and feature cc lie in the block of point (b, cc / 128, q / 256). -/
theorem cover (i : S2x2048x1024.Idx) :
    ∃ t : Fin cfg1.N, (cfg1.win 3).flush t = true ∧ i ∈ ((cfg1.win 3).blk t).view.set := by
  have h0 : (i 0).val < 2 := (i 0).isLt
  have h1 : (i 1).val < 2048 := (i 1).isLt
  have h2 : (i 2).val < 1024 := (i 2).isLt
  obtain ⟨t, ht⟩ := idx_onto ⟨(i 0).val, h0⟩ ⟨(i 1).val / 256, by omega⟩ ⟨(i 2).val / 128, by omega⟩
  have q0 : win1_3.index t (0 : Fin 3) = (i 0).val := congrFun ht 0
  have q1 : win1_3.index t (1 : Fin 3) = (i 1).val / 256 := congrFun ht 1
  have q2 : win1_3.index t (2 : Fin 3) = (i 2).val / 128 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 128 ≤ (i 2).val ∧ (i 2).val < win1_3.index t (2 : Fin 3) * 128 + 128; omega

/-- The output array after the kernel. -/
theorem final (c : Dev nD) : (dat1 (F := Ideal) V c).arrAt 3 cfg1.N = G V c :=
  (dat1 V c).arrAt_eq_of_cover 3 (G V c) (fun t _ => flushed_eq V c t) cover

/-- Entry (b, q, cc) of the output array after the kernel. -/
theorem final_attn_apply (c : Dev nD) (b : Fin 2) (q : Fin 2048) (cc : Fin 1024) :
    (dat1 (F := Ideal) V c).arrAt 3 cfg1.N (ix3 b q cc) = attnAt (inQ V c) (inK V c) (inV V c) b q cc := by
  rw [final]; rfl

end Array

end Cert.KernelIdeal.Region1

end
-- ==== Proof.Region2.lean ====
/- The output projection as a matrix product, entry by entry, over the extended reals.

   The region multiplies a [4096, 1024] row matrix A by a [1024, 1024] weight W, four row blocks of 1024 rows at a
   time, the whole weight at every block. Its result array ends holding, at entry (r, f), the sum over k of
   A(r, k)·W(k, f): each block's value is that sum for the block's rows, row r of block t is row 1024·t + r of the
   array, and the four blocks cover the array. -/
import proofs.«118262_j10471130267932_2_alg».proof.Proof.Gen.KernelIdeal.Frame
import proofs.«118262_j10471130267932_2_alg».proof.Proof.LibPlainMatmul
import Idealize.ShloMosaic.Lib.Pipeline.Value

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two offsets of a whole-block access are zero on every axis. -/
theorem hz : (![0, 0] : Fin 2 → Nat) = fun _ => 0 := funext fun a => by fin_cases a <;> rfl

/-- The row matrix [4096, 1024] and the weight [1024, 1024] as the region finds them. -/
abbrev inA (c : Dev nD) : FVec Ideal S4096x1024 .bf16 := V c main_v10
abbrev inW (c : Dev nD) : FVec Ideal S1024x1024 .bf16 := V c main_v7

/-- The product of the whole row matrix by the weight, entry by entry: entry (r, f) is the sum over k of
    A(r, k)·W(k, f). -/
def prodAt (c : Dev nD) : FVec Ideal S4096x1024 .f32 :=
  fun i => ∑ k : Fin 1024, inA V c (ix2 (i 0 : Fin 4096) k) * inW V c (ix2 k (i 1 : Fin 1024))

/-- The body's value at entry (r, f) of its block: the two casts to the same shape are the identity, and the
    product accumulated into the zero splat is the sum over the contracted coordinate. -/
theorem pay_apply (x0 : Vec Ideal S1024x1024 .bf16) (x1 : Vec Ideal S1024x1024 .bf16) (r : Fin 1024) (f : Fin 1024) :
    k2_pay1 x0 x1 (ix2 r f) = ∑ k : Fin 1024, x0 (ix2 r k) * x1 (ix2 k f) := by
  unfold k2_pay1
  rw [shapeCast_self, shapeCast_self]
  exact PlainMatmul.matmul_plain_zero_apply none x0 x1 r f

/-- The block indices over the grid of 4 points: point t takes row block t of the row matrix and of the result,
    and the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of point t's block of the row matrix is row 1024·t + r of the matrix. -/
theorem lhs_block (c : Dev nD) (t : Fin cfg2.N) (r k : Fin 1024) (R : Fin 4096) (hR : R.val = t.val * 1024 + r.val) :
    iblk2 V c 0 t (ix2 r k) = inA V c (ix2 R k) := by
  obtain ⟨e0, e1, -⟩ := idx_facts t
  show V c main_v10 (((cfg2.win 0).blk t).view.emb (ix2 r k)) = V c main_v10 (ix2 R k)
  refine congrArg (V c main_v10) (funext fun a => Fin.ext ?_)
  match a with
  | ⟨0, _⟩ => show win2_0.index t (0 : Fin 2) * 1024 + 1 * r.val = R.val; omega
  | ⟨1, _⟩ => show win2_0.index t (1 : Fin 2) * 1024 + 1 * k.val = k.val; omega

/-- Every point's block of the weight is the whole weight. -/
theorem rhs_block (c : Dev nD) (t : Fin cfg2.N) (k f : Fin 1024) :
    iblk2 V c 1 t (ix2 k f) = inW V c (ix2 k f) := by
  obtain ⟨-, -, e2, e3, -⟩ := idx_facts t
  show V c main_v7 (((cfg2.win 1).blk t).view.emb (ix2 k f)) = V c main_v7 (ix2 k f)
  refine congrArg (V c main_v7) (funext fun a => Fin.ext ?_)
  match a with
  | ⟨0, _⟩ => show win2_1.index t (0 : Fin 2) * 1024 + 1 * k.val = k.val; omega
  | ⟨1, _⟩ => show win2_1.index t (1 : Fin 2) * 1024 + 1 * f.val = f.val; omega

/-- Entry (r, f) of point t's block of the result sits at (1024·t + r, f) of the result. -/
theorem out_emb (t : Fin cfg2.N) (r f : Fin 1024) (R : Fin 4096) (hR : R.val = t.val * 1024 + r.val) :
    ((cfg2.win 2).blk t).view.emb (ix2 r f) = ix2 R f := by
  obtain ⟨-, -, -, -, e4, e5⟩ := idx_facts t
  refine funext fun a => Fin.ext ?_
  match a with
  | ⟨0, _⟩ => show win2_2.index t (0 : Fin 2) * 1024 + 1 * r.val = R.val; omega
  | ⟨1, _⟩ => show win2_2.index t (1 : Fin 2) * 1024 + 1 * f.val = f.val; omega

/-- What point t writes back is block t of the product. -/
theorem flushed_eq (c : Dev nD) (t : Fin cfg2.N) :
    (dat2 V c).flushed 2 t = ((cfg2.win 2).blk t).view.read (Elt Ideal) (prodAt V c) := by
  show (cfg2.win 2).cut (grid2.coords t) ((dat2 V c).after 2 t) = _
  rw [after2_2]
  unfold out2_2
  rw [View.canon_unit_zero hz]
  simp only [View.ld_unit_zero (S := S1024x1024) hz]
  funext j
  obtain ⟨r, f, rfl⟩ : ∃ (r : Fin 1024) (f : Fin 1024), j = ix2 r f := ⟨j 0, j 1, eq_ix2 j⟩
  have hN : cfg2.N = 4 := N_2
  have hR : (⟨t.val * 1024 + r.val, by have := t.isLt; have := r.isLt; omega⟩ : Fin 4096).val = t.val * 1024 + r.val := rfl
  show k2_pay1 (iblk2 V c 0 t) (iblk2 V c 1 t) (ix2 r f) = prodAt V c (((cfg2.win 2).blk t).view.emb (ix2 r f))
  rw [out_emb t r f _ hR]
  refine (pay_apply _ _ r f).trans ?_
  show _ = ∑ k : Fin 1024, inA V c (ix2 _ k) * inW V c (ix2 k f)
  exact Finset.sum_congr rfl fun k _ => by rw [lhs_block V c t r k _ hR, rhs_block V c t k f]

/-- An index of the result is in point t's block iff each coordinate is in the block's range on its axis. -/
theorem mem_blk (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v11).slice (win2_2.rect t)).set ↔ _
  rw [View.set_slice_whole, Rect.mem_set_unit]
  exact Iff.rfl

/-- Row r of the result is in the block of point r / 1024. -/
theorem cover (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  have hN : cfg2.N = 4 := N_2
  obtain ⟨t, ht⟩ : ∃ t : Fin cfg2.N, t.val = (i 0).val / 1024 := ⟨⟨(i 0).val / 1024, by omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The result array after the region is the product. -/
theorem final_out (c : Dev nD) : (dat2 (F := Ideal) V c).arrAt 2 cfg2.N = prodAt V c :=
  (dat2 V c).arrAt_eq_of_cover 2 (prodAt V c) (fun t _ => flushed_eq V c t) cover

/-- Entry (r, f) of the result array after the region. -/
theorem final_out_apply (c : Dev nD) (r : Fin 4096) (f : Fin 1024) :
    (dat2 (F := Ideal) V c).arrAt 2 cfg2.N (ix2 r f) = ∑ k : Fin 1024, inA V c (ix2 r k) * inW V c (ix2 k f) :=
  congrFun (final_out V c) (ix2 r f)

end Cert.KernelIdeal.Region2

end
-- ==== Proof.KernelSide.lean ====
/- The kernel program's result at an entry, assembled from its segments.

   The result is the last kernel's output re-laid from 4096 rows to [2, 2048, 1024]; that output is the row matrix
   times the transposed scaled output weight; row b·2048 + t of the row matrix is row t of batch b of the attention
   kernel's output, which at feature c is the attention of head c / 64 at query row t and coordinate c mod 64 over
   the projection kernel's queries, keys and values; and each of those, at (b, h, t, d), is row (b, t) of the input
   times column j·1024 + h·64 + d of the transposed scaled projection weight. Entry by entry this is the
   specification's `outAt` of the three launch arrays. -/
import proofs.«118262_j10471130267932_2_alg».proof.Proof.Host
import proofs.«118262_j10471130267932_2_alg».proof.Proof.Region1
import proofs.«118262_j10471130267932_2_alg».proof.Proof.Region2

set_option maxRecDepth 16384

noncomputable section

namespace Cert.KernelIdeal.KernelSide

open Cert.KernelIdeal Cert.KernelIdeal.Gen Cert.KernelIdeal.AttnHead
open Idealize.ShloMosaic Idealize.ShloMosaic.TcCoe Idealize.ShloMosaic.ValueIdx Idealize.SL.Sem Cert.Attn

variable (m : (ℓ : Loc nD τ sig) → Buf (Elt Ideal) ℓ) (ρ : Dev nD → PrngReg)

/-- The input and the transposed scaled projection weight as the projection kernel finds them. -/
abbrev inX (c : Dev nD) : FVec Ideal S2x2048x1024 .f32 := V1 m ρ c main_arg0
abbrev inWq (c : Dev nD) : FVec Ideal S1024x3072 .bf16 := V1 m ρ c main_v3

/-- An array whose entry (b, h, t, d) is row (b, t) of the input times column j·1024 + h·64 + d of the transposed
    scaled projection weight holds the specification's projection j of the launch arrays. -/
theorem proj_of (c : Dev nD) (j : Fin 3) (A : FVec Ideal S2x16x2048x64 .bf16)
    (hA : ∀ (b : Fin 2) (h : Fin 16) (tt : Fin 2048) (d : Fin 64),
      A (ix4 b h tt d) = ∑ k : Fin 1024, inX m ρ c (ix3 b tt k) * inWq m ρ c (ix2 k (Cert.Attn.feat j h d)))
    (b : Fin 2) (h : Fin 16) (tt : Fin 2048) (d : Fin 64) :
    A (ix4 b h tt d) = Cert.Attn.proj (HostVals.argX m c) (HostVals.argWq m c) j b h tt d := by
  refine (hA b h tt d).trans ?_
  unfold Cert.Attn.proj
  refine Finset.sum_congr rfl fun k _ => ?_
  refine congrArg₂ (· * ·) ?_ (HostVals.V1_v3_apply m ρ c k (Cert.Attn.feat j h d))
  exact congrFun (HostVals.V1_arg0 m ρ c) (ix3 b tt k)

/-- Row b·2048 + t of the re-laid attention output is row t of batch b of what the attention kernel left. -/
theorem relaid_row (c : Dev nD) (b : Fin 2) (tt : Fin 2048) (k : Fin 1024) (r : Fin 4096)
    (hr : r.val = b.val * 2048 + tt.val) :
    V4 m ρ c main_v10 (ix2 r k) = (dat1 (V2 m ρ) c).arrAt 3 cfg1.N (ix3 b tt k) := by
  refine (HostVals.V4_v10_apply m ρ c r k).trans ?_
  refine congrArg ((dat1 (V2 m ρ) c).arrAt 3 cfg1.N) ?_
  have hb := b.isLt
  have ht := tt.isLt
  exact funext fun a => Fin.ext (by
    match a with
    | ⟨0, _⟩ => show r.val / 2048 = b.val; omega
    | ⟨1, _⟩ => show r.val % 2048 = tt.val; omega
    | ⟨2, _⟩ => rfl)

/-- The attention kernel's output at (b, t, cc), over queries, keys and values that are the projections of the
    input, is the specification's merged row at (b, t, cc). -/
theorem merged_eq (c : Dev nD)
    (hq : (∀ (b : Fin 2) (h : Fin 16) (tt : Fin 2048) (d : Fin 64),
      (dat0 (F := Ideal) (V1 m ρ) c).arrAt 2 cfg0.N (ix4 b h tt d)
        = ∑ k : Fin 1024, inX m ρ c (ix3 b tt k) * inWq m ρ c (ix2 k (Cert.Attn.feat 0 h d))))
    (hk : (∀ (b : Fin 2) (h : Fin 16) (tt : Fin 2048) (d : Fin 64),
      (dat0 (F := Ideal) (V1 m ρ) c).arrAt 3 cfg0.N (ix4 b h tt d)
        = ∑ k : Fin 1024, inX m ρ c (ix3 b tt k) * inWq m ρ c (ix2 k (Cert.Attn.feat 1 h d))))
    (hv : (∀ (b : Fin 2) (h : Fin 16) (tt : Fin 2048) (d : Fin 64),
      (dat0 (F := Ideal) (V1 m ρ) c).arrAt 4 cfg0.N (ix4 b h tt d)
        = ∑ k : Fin 1024, inX m ρ c (ix3 b tt k) * inWq m ρ c (ix2 k (Cert.Attn.feat 2 h d))))
    (b : Fin 2) (tt : Fin 2048) (cc : Fin 1024) :
    Region1.attnAt (Region1.inQ (V2 m ρ) c) (Region1.inK (V2 m ρ) c) (Region1.inV (V2 m ρ) c) b tt cc
      = Cert.Attn.merged (HostVals.argX m c) (HostVals.argWq m c) b tt cc := by
  unfold Region1.attnAt Cert.Attn.merged
  refine Eq.trans ?_ (headAttn_eq_rowAttn _ _ _ tt (coordOf cc)).symm
  refine Region1.rowAttn_congr (fun e => ?_) (fun k e => ?_) (fun k e => ?_) rfl
  · exact (congrFun (HostVals.V2_q m ρ c) _).trans (proj_of m ρ c 0 _ hq b (headOf cc) tt e)
  · exact (congrFun (HostVals.V2_k m ρ c) _).trans (proj_of m ρ c 1 _ hk b (headOf cc) k e)
  · exact (congrFun (HostVals.V2_v m ρ c) _).trans (proj_of m ρ c 2 _ hv b (headOf cc) k e)

/-- The kernel program's result at (b, t, f) is the specification's, given that the projection kernel's three
    outputs hold, at (b, h, t, d), row (b, t) of the input times column j·1024 + h·64 + d of the weight it finds. -/
theorem kernel_apply_of (c : Dev nD)
    (hq : (∀ (b : Fin 2) (h : Fin 16) (tt : Fin 2048) (d : Fin 64),
      (dat0 (F := Ideal) (V1 m ρ) c).arrAt 2 cfg0.N (ix4 b h tt d)
        = ∑ k : Fin 1024, inX m ρ c (ix3 b tt k) * inWq m ρ c (ix2 k (Cert.Attn.feat 0 h d))))
    (hk : (∀ (b : Fin 2) (h : Fin 16) (tt : Fin 2048) (d : Fin 64),
      (dat0 (F := Ideal) (V1 m ρ) c).arrAt 3 cfg0.N (ix4 b h tt d)
        = ∑ k : Fin 1024, inX m ρ c (ix3 b tt k) * inWq m ρ c (ix2 k (Cert.Attn.feat 1 h d))))
    (hv : (∀ (b : Fin 2) (h : Fin 16) (tt : Fin 2048) (d : Fin 64),
      (dat0 (F := Ideal) (V1 m ρ) c).arrAt 4 cfg0.N (ix4 b h tt d)
        = ∑ k : Fin 1024, inX m ρ c (ix3 b tt k) * inWq m ρ c (ix2 k (Cert.Attn.feat 2 h d))))
    (b : Fin 2) (tt : Fin 2048) (f : Fin 1024) :
    W6 m ρ c (Proc.devRef .tc main_v12) (ix3 b tt f)
      = Cert.Attn.outAt (HostVals.argX m c) (HostVals.argWq m c) (HostVals.argWp m c) b tt f := by
  refine (HostVals.W6_v12_apply m ρ c b tt f).trans ?_
  refine (Region2.final_out_apply (V4 m ρ) c _ f).trans ?_
  show @Eq EReal _ _
  unfold Cert.Attn.outAt
  refine Finset.sum_congr rfl fun k _ => ?_
  refine congrArg₂ (· * ·) ?_ ?_
  · refine (relaid_row m ρ c b tt k _ rfl).trans ?_
    exact (Region1.final_attn_apply (V2 m ρ) c b tt k).trans (merged_eq m ρ c hq hk hv b tt k)
  · exact (congrFun (HostVals.V4_v7 m ρ c) (ix2 k f)).trans (HostVals.V1_v7_apply m ρ c k f)

end Cert.KernelIdeal.KernelSide

end
-- ==== Proof.LibMaxRank4.lean ====
/- A host program's maximum along the last axis of an [n, m, a, b] stack, read at an index.

   Row (d, e, p) of the stack is the function k ↦ x (d, e, p, k); the reduction from an initial value z gives, at
   (d, e, p), the largest of z and the entries of that row: `maxFrom z` of the row. -/
import Idealize.ShloMosaic.Lib.Pipeline.Value
import Idealize.ShloMosaic.Lib.ValueIdx
import Idealize.ShloMosaic.PureOps.Ideal.Laws
import proofs.«118262_j10471130267932_2_alg».proof.Proof.LibRowSoftmax

noncomputable section

namespace Cert.LibMaxRank4

open Idealize.ShloMosaic Idealize.ShloMosaic.ValueIdx Cert.LibRowSoftmax

/-- Row (d, e, p) with position k put back is entry (d, e, p, k). -/
theorem lift_row4 {n m a b : ℕ} (h : (⟨4, ![n, m, a, b]⟩ : Shape).Reduces [3] ⟨3, ![n, m, a]⟩)
    (d : Fin n) (e : Fin m) (p : Fin a) (k : Fin b) :
    h.lift (ix3 d e p) k = ix4 d e p k :=
  funext fun c => Fin.ext (by match c with | ⟨0, _⟩ => rfl | ⟨1, _⟩ => rfl | ⟨2, _⟩ => rfl | ⟨3, _⟩ => rfl)

/-- The host's maximum along the last axis, at row (d, e, p): the largest of the initial value and the row's entries. -/
theorem hostReduce_max_row4 {n m a b : ℕ} {u : Shape} (x : (⟨4, ![n, m, a, b]⟩ : Shape).Idx → Ideal .f32)
    (init : u.Idx → Ideal .f32)
    (h' : (⟨4, ![n, m, a, b]⟩ : Shape).ReducesTo [3] ⟨3, ![n, m, a]⟩)
    (h : (⟨4, ![n, m, a, b]⟩ : Shape).Reduces [3] ⟨3, ![n, m, a]⟩)
    (hu : 0 < u.numel) (d : Fin n) (e : Fin m) (p : Fin a) :
    Host.reduce FloatOps.maximumf x init h' hu (ix3 d e p)
      = maxFrom (init (Shape.Idx.first hu)) (fun k => x (ix4 d e p k)) :=
  (Host.reduce_eq_fold_single FloatOps.maximumf x init h' h hu (ix3 d e p)).trans
    (congrArg (fun f => (Finset.univ : Finset (Fin b)).fold max (init (Shape.Idx.first hu)) f)
      (funext fun k => congrArg x (lift_row4 h d e p k)))

end Cert.LibMaxRank4

end
-- ==== Proof.RefProj.lean ====
/- The reference's queries, keys and values read index by index.

   The projection weight is scaled by the f32 value of pi/2; row (b, t) of the input times the scaled weight gives
   3072 features; feature j·1024 + h·64 + d is re-laid as entry (b, t, j, h, d), the slice j = 0, 1, 2 is taken, the
   unit axis dropped and the head axis moved in front of the row axis: entry (b, h, t, d) of the query, the key and
   the value is the specification's `proj` at j = 0, 1, 2. -/
import proofs.«118262_j10471130267932_2_alg».proof.Proof.Gen.ReferenceIdeal.Read
import proofs.«118262_j10471130267932_2_alg».proof.Proof.Spec

noncomputable section

namespace Cert.RefSide

open Idealize.ShloMosaic Idealize.ShloMosaic.ValueIdx Cert.ReferenceIdeal Cert.ReferenceIdeal.Gen Cert.ReferenceIdeal.Read

variable (x0 : (⟨S2x2048x1024, .f32⟩ : BufTy).Contents (Elt Ideal)) (x1 : (⟨S3072x1024, .f32⟩ : BufTy).Contents (Elt Ideal))

/-- The scaled projection weight at (f, c). -/
theorem wq_apply (f : Fin 3072) (c : Fin 1024) :
    val_main_v1 (F := Ideal) x1 (ix2 f c) = x1 (ix2 f c) * Cert.Attn.halfPi := by
  rw [val_main_v1_apply, val_main_v0_apply, val_main_cst_apply]
  rfl

/-- The projected row (b, t) at feature f. -/
theorem v2_apply (b : Fin 2) (t : Fin 2048) (f : Fin 3072) :
    val_main_v2 (F := Ideal) x0 x1 (ix3 b t f)
      = ∑ c : Fin 1024, x0 (ix3 b t c) * (x1 (ix2 f c) * Cert.Attn.halfPi) := by
  rw [val_main_v2_apply]
  refine Finset.sum_congr rfl fun c _ => ?_
  have el : lidx_main_v2 (ix3 b t f) c = ix3 b t c :=
    funext fun a => Fin.ext (by match a with | ⟨0, _⟩ => rfl | ⟨1, _⟩ => rfl | ⟨2, _⟩ => rfl)
  have er : ridx_main_v2 (ix3 b t f) c = ix2 f c :=
    funext fun a => Fin.ext (by match a with | ⟨0, _⟩ => rfl | ⟨1, _⟩ => rfl)
  rw [el, er, wq_apply]

/-- Entry (b, t, j, h, d) of the re-laid projection sits at feature j·1024 + h·64 + d of row (b, t). -/
theorem idx_v3 (b : Fin 2) (t : Fin 2048) (j : Fin 3) (h : Fin 16) (d : Fin 64) :
    idx_main_v3 (ix5 b t j h d) = ix3 b t (Cert.Attn.feat j h d) :=
  funext fun a => Fin.ext (by
    have hb := b.isLt; have ht := t.isLt; have hj := j.isLt; have hh := h.isLt; have hd := d.isLt
    match a with
    | ⟨0, _⟩ =>
      show ((((b.val * 2048 + t.val) * 3 + j.val) * 16 + h.val) * 64 + d.val) / 6291456 = b.val; omega
    | ⟨1, _⟩ =>
      show ((((b.val * 2048 + t.val) * 3 + j.val) * 16 + h.val) * 64 + d.val) / 3072 % 2048 = t.val; omega
    | ⟨2, _⟩ =>
      show ((((b.val * 2048 + t.val) * 3 + j.val) * 16 + h.val) * 64 + d.val) % 3072
        = j.val * 1024 + h.val * 64 + d.val; omega)

/-- The re-laid projection at (b, t, j, h, d) is the specification's projection. -/
theorem v3_apply (b : Fin 2) (t : Fin 2048) (j : Fin 3) (h : Fin 16) (d : Fin 64) :
    val_main_v3 (F := Ideal) x0 x1 (ix5 b t j h d) = Cert.Attn.proj x0 x1 j b h t d := by
  rw [val_main_v3_apply, idx_v3, v2_apply]
  rfl

/-- Dropping the unit axis: entry (b, t, h, d) comes from entry (b, t, 0, h, d). -/
theorem idx_v5 (b : Fin 2) (t : Fin 2048) (h : Fin 16) (d : Fin 64) :
    idx_main_v5 (ix4 b t h d) = ix5 b t (0 : Fin 1) h d :=
  funext fun a => Fin.ext (by
    have hb := b.isLt; have ht := t.isLt; have hh := h.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => rfl
    | ⟨3, _⟩ => show (((b.val * 2048 + t.val) * 16 + h.val) * 64 + d.val) / 64 % 16 = h.val; omega
    | ⟨4, _⟩ => show (((b.val * 2048 + t.val) * 16 + h.val) * 64 + d.val) % 64 = d.val; omega)
theorem idx_v8 (b : Fin 2) (t : Fin 2048) (h : Fin 16) (d : Fin 64) :
    idx_main_v8 (ix4 b t h d) = ix5 b t (0 : Fin 1) h d := idx_v5 b t h d
theorem idx_v11 (b : Fin 2) (t : Fin 2048) (h : Fin 16) (d : Fin 64) :
    idx_main_v11 (ix4 b t h d) = ix5 b t (0 : Fin 1) h d := idx_v5 b t h d

/-- The three slices along the axis of size 3. -/
theorem idx_v4 (b : Fin 2) (t : Fin 2048) (h : Fin 16) (d : Fin 64) :
    idx_main_v4 (ix5 b t (0 : Fin 1) h d) = ix5 b t (0 : Fin 3) h d :=
  funext fun a => Fin.ext (by match a with | ⟨0, _⟩ => rfl | ⟨1, _⟩ => rfl | ⟨2, _⟩ => rfl | ⟨3, _⟩ => rfl | ⟨4, _⟩ => rfl)
theorem idx_v7 (b : Fin 2) (t : Fin 2048) (h : Fin 16) (d : Fin 64) :
    idx_main_v7 (ix5 b t (0 : Fin 1) h d) = ix5 b t (1 : Fin 3) h d :=
  funext fun a => Fin.ext (by match a with | ⟨0, _⟩ => rfl | ⟨1, _⟩ => rfl | ⟨2, _⟩ => rfl | ⟨3, _⟩ => rfl | ⟨4, _⟩ => rfl)
theorem idx_v10 (b : Fin 2) (t : Fin 2048) (h : Fin 16) (d : Fin 64) :
    idx_main_v10 (ix5 b t (0 : Fin 1) h d) = ix5 b t (2 : Fin 3) h d :=
  funext fun a => Fin.ext (by match a with | ⟨0, _⟩ => rfl | ⟨1, _⟩ => rfl | ⟨2, _⟩ => rfl | ⟨3, _⟩ => rfl | ⟨4, _⟩ => rfl)

/-- Moving the head axis in front of the row axis: entry (b, h, t, d) comes from entry (b, t, h, d). -/
theorem idx_v6 (b : Fin 2) (h : Fin 16) (t : Fin 2048) (d : Fin 64) : idx_main_v6 (ix4 b h t d) = ix4 b t h d :=
  funext fun a => Fin.ext (by match a with | ⟨0, _⟩ => rfl | ⟨1, _⟩ => rfl | ⟨2, _⟩ => rfl | ⟨3, _⟩ => rfl)
theorem idx_v9 (b : Fin 2) (h : Fin 16) (t : Fin 2048) (d : Fin 64) : idx_main_v9 (ix4 b h t d) = ix4 b t h d :=
  idx_v6 b h t d
theorem idx_v12 (b : Fin 2) (h : Fin 16) (t : Fin 2048) (d : Fin 64) : idx_main_v12 (ix4 b h t d) = ix4 b t h d :=
  idx_v6 b h t d

/-- The query at (b, h, t, d). -/
theorem query_apply (b : Fin 2) (h : Fin 16) (t : Fin 2048) (d : Fin 64) :
    val_main_v6 (F := Ideal) x0 x1 (ix4 b h t d) = Cert.Attn.proj x0 x1 0 b h t d := by
  rw [val_main_v6_apply, idx_v6, val_main_v5_apply, idx_v5, val_main_v4_apply, idx_v4, v3_apply]

/-- The key at (b, h, t, d). -/
theorem key_apply (b : Fin 2) (h : Fin 16) (t : Fin 2048) (d : Fin 64) :
    val_main_v9 (F := Ideal) x0 x1 (ix4 b h t d) = Cert.Attn.proj x0 x1 1 b h t d := by
  rw [val_main_v9_apply, idx_v9, val_main_v8_apply, idx_v8, val_main_v7_apply, idx_v7, v3_apply]

/-- The value at (b, h, t, d). -/
theorem value_apply (b : Fin 2) (h : Fin 16) (t : Fin 2048) (d : Fin 64) :
    val_main_v12 (F := Ideal) x0 x1 (ix4 b h t d) = Cert.Attn.proj x0 x1 2 b h t d := by
  rw [val_main_v12_apply, idx_v12, val_main_v11_apply, idx_v11, val_main_v10_apply, idx_v10, v3_apply]

end Cert.RefSide

end
-- ==== Proof.RefSide.lean ====
/- The reference's result read index by index.

   A score is the query-key product over the 64 head coordinates times 1/8; the row maximum is taken from -inf along
   the last axis and spread back over the row; the exponentials of the centred scores are divided by their row sum
   taken from zero: entry (b, h, q, k) of the weights is the softmax of row (b, h, q) of the scores at k. The weights
   times the values give one head's attention; the heads are laid side by side as the 1024 features of row (b, t), and
   that row times the output weight scaled by the f32 value of pi/2 is the specification's `outAt`. -/
import proofs.«118262_j10471130267932_2_alg».proof.Proof.Gen.ReferenceIdeal.Read
import proofs.«118262_j10471130267932_2_alg».proof.Proof.Spec
import proofs.«118262_j10471130267932_2_alg».proof.Proof.LibMaxRank4
import proofs.«118262_j10471130267932_2_alg».proof.Proof.RefProj

noncomputable section

namespace Cert.RefSide

open Idealize.ShloMosaic Idealize.ShloMosaic.ValueIdx Cert.ReferenceIdeal Cert.ReferenceIdeal.Gen Cert.ReferenceIdeal.Read
open Cert.LibRowSoftmax

variable (x0 : (⟨S2x2048x1024, .f32⟩ : BufTy).Contents (Elt Ideal)) (x1 : (⟨S3072x1024, .f32⟩ : BufTy).Contents (Elt Ideal))

/-- The query-key product of query row q and key row k of head (b, h). -/
theorem qk_apply (b : Fin 2) (h : Fin 16) (q k : Fin 2048) :
    val_main_v13 (F := Ideal) x0 x1 (ix4 b h q k)
      = ∑ e : Fin 64, Cert.Attn.proj x0 x1 0 b h q e * Cert.Attn.proj x0 x1 1 b h k e := by
  rw [val_main_v13_apply]
  refine Finset.sum_congr rfl fun e _ => ?_
  have el : lidx_main_v13 (ix4 b h q k) e = ix4 b h q e :=
    funext fun a => Fin.ext (by match a with | ⟨0, _⟩ => rfl | ⟨1, _⟩ => rfl | ⟨2, _⟩ => rfl | ⟨3, _⟩ => rfl)
  have er : ridx_main_v13 (ix4 b h q k) e = ix4 b h k e :=
    funext fun a => Fin.ext (by match a with | ⟨0, _⟩ => rfl | ⟨1, _⟩ => rfl | ⟨2, _⟩ => rfl | ⟨3, _⟩ => rfl)
  rw [el, er, query_apply, key_apply]

/-- The score at (b, h, q, k): the query-key product times 1/8. -/
theorem score_apply (b : Fin 2) (h : Fin 16) (q k : Fin 2048) :
    val_main_v15 (F := Ideal) x0 x1 (ix4 b h q k)
      = (∑ e : Fin 64, Cert.Attn.proj x0 x1 0 b h q e * Cert.Attn.proj x0 x1 1 b h k e) * Cert.Attn.scale := by
  rw [val_main_v15_apply, qk_apply, val_main_v14_apply, val_main_cst_0_apply]
  rfl

/-- The maximum of row (b, h, q) of the scores, taken from -inf. -/
theorem rowmax_apply (b : Fin 2) (h : Fin 16) (q : Fin 2048) :
    val_main_v18 (F := Ideal) x0 x1 (ix3 b h q)
      = maxFrom Cert.Attn.negInf (fun k => val_main_v15 (F := Ideal) x0 x1 (ix4 b h q k)) := by
  have h16 : val_main_v16 (F := Ideal) x0 x1 (ix3 b h q)
      = maxFrom Cert.Attn.negInf (fun k => val_main_v15 (F := Ideal) x0 x1 (ix4 b h q k)) := by
    unfold val_main_v16
    generalize val_main_v15 (F := Ideal) x0 x1 = y
    exact Cert.LibMaxRank4.hostReduce_max_row4 y (val_main_cst_1 (F := Ideal))
      reducesTo_S2x16x2048x2048_S2x16x2048_d3 (by decide) h_S_ b h q
  rw [val_main_v18_apply, val_main_v17_apply, val_main_cst_2_apply, h16]
  exact max_maxFrom _ _

/-- The exponential of the centred score at (b, h, q, k). -/
theorem exp_apply (b : Fin 2) (h : Fin 16) (q k : Fin 2048) :
    val_main_v22 (F := Ideal) x0 x1 (ix4 b h q k)
      = Ideal.exp (val_main_v15 (F := Ideal) x0 x1 (ix4 b h q k)
          - maxFrom Cert.Attn.negInf (fun k' => val_main_v15 (F := Ideal) x0 x1 (ix4 b h q k'))) := by
  have e : idx_main_v19 (idx_main_v20 (ix4 b h q k)) = ix3 b h q :=
    funext fun a => Fin.ext (by match a with | ⟨0, _⟩ => rfl | ⟨1, _⟩ => rfl | ⟨2, _⟩ => rfl)
  rw [val_main_v22_apply, val_main_v21_apply, val_main_v20_apply, val_main_v19_apply, e, rowmax_apply]
  rfl

/-- The sum of the exponentials of row (b, h, q), taken from zero. -/
theorem rowsum_apply (b : Fin 2) (h : Fin 16) (q : Fin 2048) :
    val_main_v23 (F := Ideal) x0 x1 (ix3 b h q)
      = ∑ k : Fin 2048, Ideal.exp (val_main_v15 (F := Ideal) x0 x1 (ix4 b h q k)
          - maxFrom Cert.Attn.negInf (fun k' => val_main_v15 (F := Ideal) x0 x1 (ix4 b h q k'))) := by
  rw [val_main_v23_apply, val_main_cst_3_apply, Ideal.ofBits_def, Ideal.ofBits_zero_f32, zero_add]
  refine Finset.sum_congr rfl fun k _ => ?_
  have e : idx_main_v23 (ix3 b h q) k = ix4 b h q k :=
    funext fun a => Fin.ext (by match a with | ⟨0, _⟩ => rfl | ⟨1, _⟩ => rfl | ⟨2, _⟩ => rfl | ⟨3, _⟩ => rfl)
  rw [e, exp_apply]

/-- The weight at (b, h, q, k): the softmax of row (b, h, q) of the scores, at k. -/
theorem softmax_apply (b : Fin 2) (h : Fin 16) (q k : Fin 2048) :
    val_main_v26 (F := Ideal) x0 x1 (ix4 b h q k)
      = softmaxFrom Cert.Attn.negInf (fun k' => val_main_v15 (F := Ideal) x0 x1 (ix4 b h q k')) k := by
  have e : idx_main_v24 (idx_main_v25 (ix4 b h q k)) = ix3 b h q :=
    funext fun a => Fin.ext (by match a with | ⟨0, _⟩ => rfl | ⟨1, _⟩ => rfl | ⟨2, _⟩ => rfl)
  rw [val_main_v26_apply, val_main_v25_apply, val_main_v24_apply, e, rowsum_apply, exp_apply]
  rfl

/-- One head's attention at (b, h, q, d). -/
theorem attn_apply (b : Fin 2) (h : Fin 16) (q : Fin 2048) (d : Fin 64) :
    val_main_v27 (F := Ideal) x0 x1 (ix4 b h q d)
      = Cert.Attn.headAttn (fun q' e => Cert.Attn.proj x0 x1 0 b h q' e) (fun k e => Cert.Attn.proj x0 x1 1 b h k e)
          (fun k e => Cert.Attn.proj x0 x1 2 b h k e) q d := by
  rw [val_main_v27_apply]
  unfold Cert.Attn.headAttn
  refine Finset.sum_congr rfl fun k _ => ?_
  have el : lidx_main_v27 (ix4 b h q d) k = ix4 b h q k :=
    funext fun a => Fin.ext (by match a with | ⟨0, _⟩ => rfl | ⟨1, _⟩ => rfl | ⟨2, _⟩ => rfl | ⟨3, _⟩ => rfl)
  have er : ridx_main_v27 (ix4 b h q d) k = ix4 b h k d :=
    funext fun a => Fin.ext (by match a with | ⟨0, _⟩ => rfl | ⟨1, _⟩ => rfl | ⟨2, _⟩ => rfl | ⟨3, _⟩ => rfl)
  rw [el, er, softmax_apply, value_apply]
  exact congrArg (fun r => softmaxFrom Cert.Attn.negInf r k * Cert.Attn.proj x0 x1 2 b h k d)
    (funext fun k' => score_apply x0 x1 b h q k')

/-- The heads laid side by side: entry (b, t, c) of the merged rows is head c / 64 at coordinate c % 64. -/
theorem merged_apply (b : Fin 2) (t : Fin 2048) (c : Fin 1024) :
    val_main_v29 (F := Ideal) x0 x1 (ix3 b t c) = Cert.Attn.merged x0 x1 b t c := by
  have e : idx_main_v28 (idx_main_v29 (ix3 b t c)) = ix4 b (Cert.Attn.headOf c) t (Cert.Attn.coordOf c) :=
    funext fun a => Fin.ext (by
      have hb := b.isLt; have ht := t.isLt; have hc := c.isLt
      match a with
      | ⟨0, _⟩ => show ((b.val * 2048 + t.val) * 1024 + c.val) / 2097152 = b.val; omega
      | ⟨1, _⟩ => show ((b.val * 2048 + t.val) * 1024 + c.val) / 64 % 16 = c.val / 64; omega
      | ⟨2, _⟩ => show ((b.val * 2048 + t.val) * 1024 + c.val) / 1024 % 2048 = t.val; omega
      | ⟨3, _⟩ => show ((b.val * 2048 + t.val) * 1024 + c.val) % 64 = c.val % 64; omega)
  rw [val_main_v29_apply, val_main_v28_apply, e, attn_apply]
  rfl

/-- The scaled output weight at (f, c). -/
theorem wp_apply (x2 : (⟨S1024x1024, .f32⟩ : BufTy).Contents (Elt Ideal)) (f c : Fin 1024) :
    val_main_v31 (F := Ideal) x2 (ix2 f c) = x2 (ix2 f c) * Cert.Attn.halfPi := by
  rw [val_main_v31_apply, val_main_v30_apply, val_main_cst_4_apply]
  rfl

/-- The reference's result at (b, t, f) is the specification's. -/
theorem ref_apply (x0 : (⟨S2x2048x1024, .f32⟩ : BufTy).Contents (Elt Ideal)) (x1 : (⟨S3072x1024, .f32⟩ : BufTy).Contents (Elt Ideal))
    (x2 : (⟨S1024x1024, .f32⟩ : BufTy).Contents (Elt Ideal)) (b : Fin 2) (t : Fin 2048) (f : Fin 1024) :
    Cert.ReferenceIdeal.Read.val_main_v32 (F := Ideal) x0 x1 x2 (ix3 b t f) = Cert.Attn.outAt x0 x1 x2 b t f := by
  rw [val_main_v32_apply]
  unfold Cert.Attn.outAt
  refine Finset.sum_congr rfl fun c _ => ?_
  have el : lidx_main_v32 (ix3 b t f) c = ix3 b t c :=
    funext fun a => Fin.ext (by match a with | ⟨0, _⟩ => rfl | ⟨1, _⟩ => rfl | ⟨2, _⟩ => rfl)
  have er : ridx_main_v32 (ix3 b t f) c = ix2 f c :=
    funext fun a => Fin.ext (by match a with | ⟨0, _⟩ => rfl | ⟨1, _⟩ => rfl)
  rw [el, er, merged_apply, wp_apply]

end Cert.RefSide

end
-- ==== Proof.lean ====
/- Multi-head self-attention in three kernels against the plain reference: the claim.

   The kernel program scales and transposes the two weights on the host, projects the input to queries, keys and
   values head by head (first kernel), computes each head's softmax attention a tile of 256 query rows at a time and
   lays the heads side by side (second kernel), and projects the merged rows by the output weight (third kernel).
   The reference does the same with whole-array operations.  At the exact reading of floats as extended reals both
   results are, entry by entry, the one function `Cert.Attn.out` of the three argument arrays: the kernel side by
   reading each kernel's written blocks as one whole-array function and composing the three through the host
   stretches between them, the reference side by reading its operations one at a time.  No law beyond the
   commutative-monoid structure of sums on the extended reals is used, so the precondition is never opened.
   The word-level program and its idealization run, terminate and keep their arguments by their frames; the
   idealization rewrote nothing, so there is nothing to preserve. -/
import proofs.«118262_j10471130267932_2_alg».proof.Defs
import proofs.«118262_j10471130267932_2_alg».proof.Proof.Gen.Kernel
import proofs.«118262_j10471130267932_2_alg».proof.Proof.Gen.Kernel.Skeleton
import proofs.«118262_j10471130267932_2_alg».proof.Proof.Gen.Kernel.Launch
import proofs.«118262_j10471130267932_2_alg».proof.Proof.Gen.Kernel.Points
import proofs.«118262_j10471130267932_2_alg».proof.Proof.Gen.Kernel.Frame
import proofs.«118262_j10471130267932_2_alg».proof.Proof.Gen.KernelIdeal
import proofs.«118262_j10471130267932_2_alg».proof.Proof.Gen.KernelIdeal.Skeleton
import proofs.«118262_j10471130267932_2_alg».proof.Proof.Gen.KernelIdeal.Launch
import proofs.«118262_j10471130267932_2_alg».proof.Proof.Gen.KernelIdeal.Points
import proofs.«118262_j10471130267932_2_alg».proof.Proof.Gen.KernelIdeal.Frame
import proofs.«118262_j10471130267932_2_alg».proof.Proof.Gen.ReferenceIdeal
import proofs.«118262_j10471130267932_2_alg».proof.Proof.Gen.Pre_finite_inputs
import Idealize.ShloMosaic.Adequacy
import Idealize.ShloMosaic.Init
import proofs.«118262_j10471130267932_2_alg».proof.Proof.Gen.ReferenceIdeal.Run
import proofs.«118262_j10471130267932_2_alg».proof.Proof.KernelRun
import proofs.«118262_j10471130267932_2_alg».proof.Proof.Host
import proofs.«118262_j10471130267932_2_alg».proof.Proof.Region0
import proofs.«118262_j10471130267932_2_alg».proof.Proof.KernelSide
import proofs.«118262_j10471130267932_2_alg».proof.Proof.RefSide

noncomputable section

namespace Cert.Proof

open Idealize.ShloMosaic Idealize.ShloMosaic.TcCoe Idealize.SL.Sem Idealize.ShloMosaic.ValueIdx

/-- The three programs run, terminate and keep their arguments. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Two arrays over [2, 2048, 1024] that agree at every (b, t, f) are equal. -/
theorem ext3 {α : Type} (u v : (⟨3, ![2, 2048, 1024]⟩ : Shape).Idx → α)
    (h : ∀ (b : Fin 2) (t : Fin 2048) (f : Fin 1024), u (ix3 b t f) = v (ix3 b t f)) : u = v := by
  funext i
  rw [eq_ix3 i]
  exact h _ _ _

/-- Entry (b, t, f) of the kernel program's result is the specification's. -/
theorem kernel_apply (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (b : Fin 2) (t : Fin 2048) (f : Fin 1024) :
    Cert.KernelIdeal.Gen.W6 m ρ c (Proc.devRef .tc Cert.KernelIdeal.main_v12) (ix3 b t f)
      = Cert.Attn.outAt (Cert.KernelIdeal.HostVals.argX m c) (Cert.KernelIdeal.HostVals.argWq m c) (Cert.KernelIdeal.HostVals.argWp m c) b t f :=
  Cert.KernelIdeal.KernelSide.kernel_apply_of m ρ c
    (fun b h tt d => Cert.KernelIdeal.Region0.final_q_apply (Cert.KernelIdeal.Gen.V1 m ρ) c b h tt d)
    (fun b h tt d => Cert.KernelIdeal.Region0.final_k_apply (Cert.KernelIdeal.Gen.V1 m ρ) c b h tt d)
    (fun b h tt d => Cert.KernelIdeal.Region0.final_v_apply (Cert.KernelIdeal.Gen.V1 m ρ) c b h tt d) b t f

/-- From memories agreeing on the arguments both idealized programs end with the specification's array. -/
theorem algebraic : Cert.algebraic_KernelIdeal_ReferenceIdeal := by
  intro m ρ m' ρ' _ hagree
  refine ⟨fun c => Cert.Attn.out (Cert.KernelIdeal.HostVals.argX m c) (Cert.KernelIdeal.HostVals.argWq m c) (Cert.KernelIdeal.HostVals.argWp m c), ?_, ?_⟩
  · exact (θ_run Cert.KernelIdeal.defs _ _).mono
      (fun r h c => ⟨(h c).1.trans (ext3 _ _ fun b t f => (kernel_apply m ρ c b t f).trans (Cert.Attn.out_apply _ _ _ b t f).symm), (h c).2⟩)
      (Cert.KernelIdeal.RunVals.run_vals (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, (hagree c).1, (hagree c).2.1, (hagree c).2.2]
    exact ext3 _ _ fun b t f => (Cert.RefSide.ref_apply _ _ _ b t f).trans (Cert.Attn.out_apply _ _ _ b t f).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
